-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x96x320 : Shape := ⟨4, ![8, 128, 96, 320]⟩
abbrev S_ : Shape := ⟨0, ![]⟩

class Facts : Prop where
  bcast_S_S8x128x96x320 : S_.BroadcastsInDim S8x128x96x320 (![] : Fin 0 → Fin S8x128x96x320.rank)
  reducesTo_S8x128x96x320_S_d0_1_2_3 : S8x128x96x320.ReducesTo [0, 1, 2, 3] S_
  h_S_ : 0 < S_.numel

variable [Facts]

def fn {F : FTy → Type} [FloatOps F] (main_arg0 : FVec F S8x128x96x320 .f32) (main_arg1 : FVec F S8x128x96x320 .f32) : IVec S_ 1 :=
  let main_v0 : FVec F S8x128x96x320 .f32 := Host.absf main_arg0
  let main_cst : FVec F S_ .f32 := constant S_ .f32 0x7F800000#32
  let main_v1 : FVec F S8x128x96x320 .f32 := broadcastInDim S8x128x96x320 ![] bcast_S_S8x128x96x320 main_cst
  let main_v2 : IVec S8x128x96x320 1 := cmpf .olt main_v0 main_v1
  let main_c : IVec S_ 1 := constantI S_ 1 1#1
  let main_v3 : IVec S_ 1 := (fun x v => Host.reduce IntOp.andi x v reducesTo_S8x128x96x320_S_d0_1_2_3 h_S_) main_v2 main_c
  let main_v4 : FVec F S8x128x96x320 .f32 := Host.absf main_arg1
  let main_cst_0 : FVec F S_ .f32 := constant S_ .f32 0x7F800000#32
  let main_v5 : FVec F S8x128x96x320 .f32 := broadcastInDim S8x128x96x320 ![] bcast_S_S8x128x96x320 main_cst_0
  let main_v6 : IVec S8x128x96x320 1 := cmpf .olt main_v4 main_v5
  let main_c_1 : IVec S_ 1 := constantI S_ 1 1#1
  let main_v7 : IVec S_ 1 := (fun x v => Host.reduce IntOp.andi x v reducesTo_S8x128x96x320_S_d0_1_2_3 h_S_) main_v6 main_c_1
  let main_v8 : IVec S_ 1 := andi main_v3 main_v7
  main_v8
-- ==== Kernel.lean ====
abbrev S8x128x96x320 : Shape := ⟨4, ![8, 128, 96, 320]⟩
abbrev S8x9x96x320 : Shape := ⟨4, ![8, 9, 96, 320]⟩
abbrev S1x128x24x320 : Shape := ⟨4, ![1, 128, 24, 320]⟩
abbrev S1x9x24x320 : Shape := ⟨4, ![1, 9, 24, 320]⟩
abbrev S9x24x320 : Shape := ⟨3, ![9, 24, 320]⟩
abbrev S128x24x320 : Shape := ⟨3, ![128, 24, 320]⟩
abbrev S32x24x320 : Shape := ⟨3, ![32, 24, 320]⟩
abbrev S24x320 : Shape := ⟨2, ![24, 320]⟩
abbrev S1x24x320 : Shape := ⟨3, ![1, 24, 320]⟩

abbrev nBuf : Space → Nat
  | .hbm => 3
  | .vmem => 7
  | .smem => 0
  | _ => 0

abbrev bufTy : (tb : Table) → Fin (tcTables nBuf tb) → BufTy
  | .hbm, ⟨0, _⟩ => ⟨S8x128x96x320, .f32⟩
  | .hbm, ⟨1, _⟩ => ⟨S8x128x96x320, .f32⟩
  | .hbm, ⟨2, _⟩ => ⟨S8x9x96x320, .f32⟩
  | .local _ .vmem, ⟨0, _⟩ => ⟨S1x128x24x320, .f32⟩
  | .local _ .vmem, ⟨1, _⟩ => ⟨S1x128x24x320, .f32⟩
  | .local _ .vmem, ⟨2, _⟩ => ⟨S1x128x24x320, .f32⟩
  | .local _ .vmem, ⟨3, _⟩ => ⟨S1x128x24x320, .f32⟩
  | .local _ .vmem, ⟨4, _⟩ => ⟨S1x9x24x320, .f32⟩
  | .local _ .vmem, ⟨5, _⟩ => ⟨S1x9x24x320, .f32⟩
  | .local _ .vmem, ⟨6, _⟩ => ⟨S9x24x320, .f32⟩
  | _, _ => ⟨S8x128x96x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_mult1 : BitVec 32 :=
  let c0_i32_3 : BitVec 32 := 0#32
  let c32_i32 : BitVec 32 := 32#32
  let v4 : BitVec 32 := Scalar.muli c0_i32_3 c32_i32
  v4
def k0_off1 (c0_i32_3 : BitVec 32) : Fin 3 → Nat :=
  let c32_i32 : BitVec 32 := 32#32
  let v4 : BitVec 32 := Scalar.muli c0_i32_3 c32_i32
  let v5 : BitVec 32 := v4
  let v8 : Index := Scalar.indexCast v5
  let c0_7 : Index := 0#32
  let c0_8 : Index := 0#32
  ![v8.toNat, 0, 0]
def k0_mult2 : BitVec 32 :=
  let c1_i32_85 : BitVec 32 := 1#32
  let c32_i32_86 : BitVec 32 := 32#32
  let v134 : BitVec 32 := Scalar.muli c1_i32_85 c32_i32_86
  v134
def k0_mult3 : BitVec 32 :=
  let c2_i32_184 : BitVec 32 := 2#32
  let c32_i32_185 : BitVec 32 := 32#32
  let v264 : BitVec 32 := Scalar.muli c2_i32_184 c32_i32_185
  v264
def k0_mult4 : BitVec 32 :=
  let c3_i32_283 : BitVec 32 := 3#32
  let c32_i32_284 : BitVec 32 := 32#32
  let v394 : BitVec 32 := Scalar.muli c3_i32_283 c32_i32_284
  v394
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x24x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x24x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x24x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S9x24x320_S9x24x320_0_0_0 : ∀ a, (![0, 0, 0] : Fin 3 → Nat) a + S9x24x320.size a ≤ S9x24x320.size a
  h_S9x24x320 : 0 < S9x24x320.numel
  shapeCasts_S9x24x320_S9x24x320 : S9x24x320.ShapeCasts S9x24x320
  inb_S1x128x24x320_S1x128x24x320_0_0_0_0 : ∀ a, (![0, 0, 0, 0] : Fin 4 → Nat) a + S1x128x24x320.size a ≤ S1x128x24x320.size a
  squeezes_S1x128x24x320_S128x24x320 : S1x128x24x320.Squeezes S128x24x320
  h_S32x24x320 : 0 < S32x24x320.numel
  rotates_S32x24x320_d2 : S32x24x320.Rotates 2 none
  iota_S32x24x320_d2_w32 : S32x24x320.Iotas .tc 32 [2]
  reduces_S32x24x320_S24x320 : S32x24x320.Reduces [0] S24x320
  inb_S9x24x320_S1x24x320_0_0_0 : ∀ a, (![0, 0, 0] : Fin 3 → Nat) a + S1x24x320.size a ≤ S9x24x320.size a
  h_S1x24x320 : 0 < S1x24x320.numel
  shapeCasts_S1x24x320_S24x320 : S1x24x320.ShapeCasts S24x320
  shapeCasts_S24x320_S1x24x320 : S24x320.ShapeCasts S1x24x320
  inb_S9x24x320_S1x24x320_1_0_0 : ∀ a, (![1, 0, 0] : Fin 3 → Nat) a + S1x24x320.size a ≤ S9x24x320.size a
  inb_S9x24x320_S1x24x320_2_0_0 : ∀ a, (![2, 0, 0] : Fin 3 → Nat) a + S1x24x320.size a ≤ S9x24x320.size a
  inb_S9x24x320_S1x24x320_3_0_0 : ∀ a, (![3, 0, 0] : Fin 3 → Nat) a + S1x24x320.size a ≤ S9x24x320.size a
  inb_S9x24x320_S1x24x320_4_0_0 : ∀ a, (![4, 0, 0] : Fin 3 → Nat) a + S1x24x320.size a ≤ S9x24x320.size a
  inb_S9x24x320_S1x24x320_5_0_0 : ∀ a, (![5, 0, 0] : Fin 3 → Nat) a + S1x24x320.size a ≤ S9x24x320.size a
  inb_S9x24x320_S1x24x320_6_0_0 : ∀ a, (![6, 0, 0] : Fin 3 → Nat) a + S1x24x320.size a ≤ S9x24x320.size a
  inb_S9x24x320_S1x24x320_7_0_0 : ∀ a, (![7, 0, 0] : Fin 3 → Nat) a + S1x24x320.size a ≤ S9x24x320.size a
  inb_S9x24x320_S1x24x320_8_0_0 : ∀ a, (![8, 0, 0] : Fin 3 → Nat) a + S1x24x320.size a ≤ S9x24x320.size a
  inb_S1x9x24x320_S1x9x24x320_0_0_0_0 : ∀ a, (![0, 0, 0, 0] : Fin 4 → Nat) a + S1x9x24x320.size a ≤ S1x9x24x320.size a
  h_S1x9x24x320 : 0 < S1x9x24x320.numel
  shapeCasts_S1x9x24x320_S9x24x320 : S1x9x24x320.ShapeCasts S9x24x320
  shapeCasts_S9x24x320_S1x9x24x320 : S9x24x320.ShapeCasts S1x9x24x320
  hrank0 : 0 < grid0.rank
  k0_mult1_dvd : 32 ∣ k0_mult1.toNat
  k0_off1_inb : ∀ (r : Fin 4), ∀ a, (k0_off1 (BitVec.ofNat 32 r.val)) a + S32x24x320.size a ≤ S128x24x320.size a
  k0_mult2_dvd : 32 ∣ k0_mult2.toNat
  k0_mult3_dvd : 32 ∣ k0_mult3.toNat
  k0_mult4_dvd : 32 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x24x320.size a ≤ S8x128x96x320.size a
  hwx0_0 : ∀ i : grid0.Coords, EltTy.bits .f32 = 32 ∨ (Rect.block (s := S8x128x96x320) S1x128x24x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x24x320.size a ≤ S8x128x96x320.size a
  hwx0_1 : ∀ i : grid0.Coords, EltTy.bits .f32 = 32 ∨ (Rect.block (s := S8x128x96x320) S1x128x24x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9x24x320.size a ≤ S8x9x96x320.size a
  hwx0_2 : ∀ i : grid0.Coords, EltTy.bits .f32 = 32 ∨ (Rect.block (s := S8x9x96x320) S1x9x24x320.size (cc0_transform_2 i) (hinb0_2 i)).WholeWords (EltTy.packing .f32)

variable [Facts₀]

abbrev win0_0 : Pipeline.Window sig grid0 :=
  Pipeline.Window.ofSpec (Memref.whole main_arg0) S1x128x24x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x24x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x9x24x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x96x320 : Shape := ⟨4, ![8, 128, 96, 320]⟩
abbrev S_ : Shape := ⟨0, ![]⟩
abbrev S8x128x96x328 : Shape := ⟨4, ![8, 128, 96, 328]⟩
abbrev S8x96x320 : Shape := ⟨3, ![8, 96, 320]⟩
abbrev S8x1x96x320 : Shape := ⟨4, ![8, 1, 96, 320]⟩
abbrev S8x9x96x320 : Shape := ⟨4, ![8, 9, 96, 320]⟩

abbrev nBuf : Space → Nat
  | .hbm => 114
  | .vmem => 0
  | .smem => 0
  | _ => 0

abbrev bufTy : (tb : Table) → Fin (tcTables nBuf tb) → BufTy
  | .hbm, ⟨0, _⟩ => ⟨S8x128x96x320, .f32⟩
  | .hbm, ⟨1, _⟩ => ⟨S8x128x96x320, .f32⟩
  | .hbm, ⟨2, _⟩ => ⟨S_, .i32⟩
  | .hbm, ⟨3, _⟩ => ⟨S_, .f32⟩
  | .hbm, ⟨4, _⟩ => ⟨S8x128x96x328, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S8x128x96x320, .f32⟩
  | .hbm, ⟨10, _⟩ => ⟨S8x128x96x320, .f32⟩
  | .hbm, ⟨11, _⟩ => ⟨S_, .f32⟩
  | .hbm, ⟨12, _⟩ => ⟨S8x96x320, .f32⟩
  | .hbm, ⟨13, _⟩ => ⟨S_, .f32⟩
  | .hbm, ⟨14, _⟩ => ⟨S8x96x320, .f32⟩
  | .hbm, ⟨15, _⟩ => ⟨S8x96x320, .f32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S8x128x96x320, .f32⟩
  | .hbm, ⟨21, _⟩ => ⟨S8x128x96x320, .f32⟩
  | .hbm, ⟨22, _⟩ => ⟨S_, .f32⟩
  | .hbm, ⟨23, _⟩ => ⟨S8x96x320, .f32⟩
  | .hbm, ⟨24, _⟩ => ⟨S_, .f32⟩
  | .hbm, ⟨25, _⟩ => ⟨S8x96x320, .f32⟩
  | .hbm, ⟨26, _⟩ => ⟨S8x96x320, .f32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S8x128x96x320, .f32⟩
  | .hbm, ⟨32, _⟩ => ⟨S8x128x96x320, .f32⟩
  | .hbm, ⟨33, _⟩ => ⟨S_, .f32⟩
  | .hbm, ⟨34, _⟩ => ⟨S8x96x320, .f32⟩
  | .hbm, ⟨35, _⟩ => ⟨S_, .f32⟩
  | .hbm, ⟨36, _⟩ => ⟨S8x96x320, .f32⟩
  | .hbm, ⟨37, _⟩ => ⟨S8x96x320, .f32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S8x128x96x320, .f32⟩
  | .hbm, ⟨43, _⟩ => ⟨S8x128x96x320, .f32⟩
  | .hbm, ⟨44, _⟩ => ⟨S_, .f32⟩
  | .hbm, ⟨45, _⟩ => ⟨S8x96x320, .f32⟩
  | .hbm, ⟨46, _⟩ => ⟨S_, .f32⟩
  | .hbm, ⟨47, _⟩ => ⟨S8x96x320, .f32⟩
  | .hbm, ⟨48, _⟩ => ⟨S8x96x320, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S8x128x96x320, .f32⟩
  | .hbm, ⟨54, _⟩ => ⟨S8x128x96x320, .f32⟩
  | .hbm, ⟨55, _⟩ => ⟨S_, .f32⟩
  | .hbm, ⟨56, _⟩ => ⟨S8x96x320, .f32⟩
  | .hbm, ⟨57, _⟩ => ⟨S_, .f32⟩
  | .hbm, ⟨58, _⟩ => ⟨S8x96x320, .f32⟩
  | .hbm, ⟨59, _⟩ => ⟨S8x96x320, .f32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S8x128x96x320, .f32⟩
  | .hbm, ⟨65, _⟩ => ⟨S8x128x96x320, .f32⟩
  | .hbm, ⟨66, _⟩ => ⟨S_, .f32⟩
  | .hbm, ⟨67, _⟩ => ⟨S8x96x320, .f32⟩
  | .hbm, ⟨68, _⟩ => ⟨S_, .f32⟩
  | .hbm, ⟨69, _⟩ => ⟨S8x96x320, .f32⟩
  | .hbm, ⟨70, _⟩ => ⟨S8x96x320, .f32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S8x128x96x320, .f32⟩
  | .hbm, ⟨76, _⟩ => ⟨S8x128x96x320, .f32⟩
  | .hbm, ⟨77, _⟩ => ⟨S_, .f32⟩
  | .hbm, ⟨78, _⟩ => ⟨S8x96x320, .f32⟩
  | .hbm, ⟨79, _⟩ => ⟨S_, .f32⟩
  | .hbm, ⟨80, _⟩ => ⟨S8x96x320, .f32⟩
  | .hbm, ⟨81, _⟩ => ⟨S8x96x320, .f32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S8x128x96x320, .f32⟩
  | .hbm, ⟨87, _⟩ => ⟨S8x128x96x320, .f32⟩
  | .hbm, ⟨88, _⟩ => ⟨S_, .f32⟩
  | .hbm, ⟨89, _⟩ => ⟨S8x96x320, .f32⟩
  | .hbm, ⟨90, _⟩ => ⟨S_, .f32⟩
  | .hbm, ⟨91, _⟩ => ⟨S8x96x320, .f32⟩
  | .hbm, ⟨92, _⟩ => ⟨S8x96x320, .f32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S8x128x96x320, .f32⟩
  | .hbm, ⟨98, _⟩ => ⟨S8x128x96x320, .f32⟩
  | .hbm, ⟨99, _⟩ => ⟨S_, .f32⟩
  | .hbm, ⟨100, _⟩ => ⟨S8x96x320, .f32⟩
  | .hbm, ⟨101, _⟩ => ⟨S_, .f32⟩
  | .hbm, ⟨102, _⟩ => ⟨S8x96x320, .f32⟩
  | .hbm, ⟨103, _⟩ => ⟨S8x96x320, .f32⟩
  | .hbm, ⟨104, _⟩ => ⟨S8x1x96x320, .f32⟩
  | .hbm, ⟨105, _⟩ => ⟨S8x1x96x320, .f32⟩
  | .hbm, ⟨106, _⟩ => ⟨S8x1x96x320, .f32⟩
  | .hbm, ⟨107, _⟩ => ⟨S8x1x96x320, .f32⟩
  | .hbm, ⟨108, _⟩ => ⟨S8x1x96x320, .f32⟩
  | .hbm, ⟨109, _⟩ => ⟨S8x1x96x320, .f32⟩
  | .hbm, ⟨110, _⟩ => ⟨S8x1x96x320, .f32⟩
  | .hbm, ⟨111, _⟩ => ⟨S8x1x96x320, .f32⟩
  | .hbm, ⟨112, _⟩ => ⟨S8x1x96x320, .f32⟩
  | .hbm, ⟨113, _⟩ => ⟨S8x9x96x320, .f32⟩
  | _, _ => ⟨S8x128x96x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_4 : Ref sig .tc := ⟨.hbm, 13, rfl⟩
abbrev main_v4 : Ref sig .tc := ⟨.hbm, 14, rfl⟩
abbrev main_v5 : Ref sig .tc := ⟨.hbm, 15, rfl⟩
abbrev main_c_5 : Ref sig .tc := ⟨.hbm, 16, rfl⟩
abbrev main_c_6 : Ref sig .tc := ⟨.hbm, 17, rfl⟩
abbrev main_c_7 : Ref sig .tc := ⟨.hbm, 18, rfl⟩
abbrev main_c_8 : Ref sig .tc := ⟨.hbm, 19, rfl⟩
abbrev main_v6 : Ref sig .tc := ⟨.hbm, 20, rfl⟩
abbrev main_v7 : Ref sig .tc := ⟨.hbm, 21, rfl⟩
abbrev main_cst_9 : Ref sig .tc := ⟨.hbm, 22, rfl⟩
abbrev main_v8 : Ref sig .tc := ⟨.hbm, 23, rfl⟩
abbrev main_cst_10 : Ref sig .tc := ⟨.hbm, 24, rfl⟩
abbrev main_v9 : Ref sig .tc := ⟨.hbm, 25, rfl⟩
abbrev main_v10 : Ref sig .tc := ⟨.hbm, 26, rfl⟩
abbrev main_c_11 : Ref sig .tc := ⟨.hbm, 27, rfl⟩
abbrev main_c_12 : Ref sig .tc := ⟨.hbm, 28, rfl⟩
abbrev main_c_13 : Ref sig .tc := ⟨.hbm, 29, rfl⟩
abbrev main_c_14 : Ref sig .tc := ⟨.hbm, 30, rfl⟩
abbrev main_v11 : Ref sig .tc := ⟨.hbm, 31, rfl⟩
abbrev main_v12 : Ref sig .tc := ⟨.hbm, 32, rfl⟩
abbrev main_cst_15 : Ref sig .tc := ⟨.hbm, 33, rfl⟩
abbrev main_v13 : Ref sig .tc := ⟨.hbm, 34, rfl⟩
abbrev main_cst_16 : Ref sig .tc := ⟨.hbm, 35, rfl⟩
abbrev main_v14 : Ref sig .tc := ⟨.hbm, 36, rfl⟩
abbrev main_v15 : Ref sig .tc := ⟨.hbm, 37, rfl⟩
abbrev main_c_17 : Ref sig .tc := ⟨.hbm, 38, rfl⟩
abbrev main_c_18 : Ref sig .tc := ⟨.hbm, 39, rfl⟩
abbrev main_c_19 : Ref sig .tc := ⟨.hbm, 40, rfl⟩
abbrev main_c_20 : Ref sig .tc := ⟨.hbm, 41, rfl⟩
abbrev main_v16 : Ref sig .tc := ⟨.hbm, 42, rfl⟩
abbrev main_v17 : Ref sig .tc := ⟨.hbm, 43, rfl⟩
abbrev main_cst_21 : Ref sig .tc := ⟨.hbm, 44, rfl⟩
abbrev main_v18 : Ref sig .tc := ⟨.hbm, 45, rfl⟩
abbrev main_cst_22 : Ref sig .tc := ⟨.hbm, 46, rfl⟩
abbrev main_v19 : Ref sig .tc := ⟨.hbm, 47, rfl⟩
abbrev main_v20 : Ref sig .tc := ⟨.hbm, 48, rfl⟩
abbrev main_c_23 : Ref sig .tc := ⟨.hbm, 49, rfl⟩
abbrev main_c_24 : Ref sig .tc := ⟨.hbm, 50, rfl⟩
abbrev main_c_25 : Ref sig .tc := ⟨.hbm, 51, rfl⟩
abbrev main_c_26 : Ref sig .tc := ⟨.hbm, 52, rfl⟩
abbrev main_v21 : Ref sig .tc := ⟨.hbm, 53, rfl⟩
abbrev main_v22 : Ref sig .tc := ⟨.hbm, 54, rfl⟩
abbrev main_cst_27 : Ref sig .tc := ⟨.hbm, 55, rfl⟩
abbrev main_v23 : Ref sig .tc := ⟨.hbm, 56, rfl⟩
abbrev main_cst_28 : Ref sig .tc := ⟨.hbm, 57, rfl⟩
abbrev main_v24 : Ref sig .tc := ⟨.hbm, 58, rfl⟩
abbrev main_v25 : Ref sig .tc := ⟨.hbm, 59, rfl⟩
abbrev main_c_29 : Ref sig .tc := ⟨.hbm, 60, rfl⟩
abbrev main_c_30 : Ref sig .tc := ⟨.hbm, 61, rfl⟩
abbrev main_c_31 : Ref sig .tc := ⟨.hbm, 62, rfl⟩
abbrev main_c_32 : Ref sig .tc := ⟨.hbm, 63, rfl⟩
abbrev main_v26 : Ref sig .tc := ⟨.hbm, 64, rfl⟩
abbrev main_v27 : Ref sig .tc := ⟨.hbm, 65, rfl⟩
abbrev main_cst_33 : Ref sig .tc := ⟨.hbm, 66, rfl⟩
abbrev main_v28 : Ref sig .tc := ⟨.hbm, 67, rfl⟩
abbrev main_cst_34 : Ref sig .tc := ⟨.hbm, 68, rfl⟩
abbrev main_v29 : Ref sig .tc := ⟨.hbm, 69, rfl⟩
abbrev main_v30 : Ref sig .tc := ⟨.hbm, 70, rfl⟩
abbrev main_c_35 : Ref sig .tc := ⟨.hbm, 71, rfl⟩
abbrev main_c_36 : Ref sig .tc := ⟨.hbm, 72, rfl⟩
abbrev main_c_37 : Ref sig .tc := ⟨.hbm, 73, rfl⟩
abbrev main_c_38 : Ref sig .tc := ⟨.hbm, 74, rfl⟩
abbrev main_v31 : Ref sig .tc := ⟨.hbm, 75, rfl⟩
abbrev main_v32 : Ref sig .tc := ⟨.hbm, 76, rfl⟩
abbrev main_cst_39 : Ref sig .tc := ⟨.hbm, 77, rfl⟩
abbrev main_v33 : Ref sig .tc := ⟨.hbm, 78, rfl⟩
abbrev main_cst_40 : Ref sig .tc := ⟨.hbm, 79, rfl⟩
abbrev main_v34 : Ref sig .tc := ⟨.hbm, 80, rfl⟩
abbrev main_v35 : Ref sig .tc := ⟨.hbm, 81, rfl⟩
abbrev main_c_41 : Ref sig .tc := ⟨.hbm, 82, rfl⟩
abbrev main_c_42 : Ref sig .tc := ⟨.hbm, 83, rfl⟩
abbrev main_c_43 : Ref sig .tc := ⟨.hbm, 84, rfl⟩
abbrev main_c_44 : Ref sig .tc := ⟨.hbm, 85, rfl⟩
abbrev main_v36 : Ref sig .tc := ⟨.hbm, 86, rfl⟩
abbrev main_v37 : Ref sig .tc := ⟨.hbm, 87, rfl⟩
abbrev main_cst_45 : Ref sig .tc := ⟨.hbm, 88, rfl⟩
abbrev main_v38 : Ref sig .tc := ⟨.hbm, 89, rfl⟩
abbrev main_cst_46 : Ref sig .tc := ⟨.hbm, 90, rfl⟩
abbrev main_v39 : Ref sig .tc := ⟨.hbm, 91, rfl⟩
abbrev main_v40 : Ref sig .tc := ⟨.hbm, 92, rfl⟩
abbrev main_c_47 : Ref sig .tc := ⟨.hbm, 93, rfl⟩
abbrev main_c_48 : Ref sig .tc := ⟨.hbm, 94, rfl⟩
abbrev main_c_49 : Ref sig .tc := ⟨.hbm, 95, rfl⟩
abbrev main_c_50 : Ref sig .tc := ⟨.hbm, 96, rfl⟩
abbrev main_v41 : Ref sig .tc := ⟨.hbm, 97, rfl⟩
abbrev main_v42 : Ref sig .tc := ⟨.hbm, 98, rfl⟩
abbrev main_cst_51 : Ref sig .tc := ⟨.hbm, 99, rfl⟩
abbrev main_v43 : Ref sig .tc := ⟨.hbm, 100, rfl⟩
abbrev main_cst_52 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩

abbrev nD : Nat := 1
abbrev τ : Topo := Topo.v7x

variable {F : FTy → Type} [FloatOps F]

class Facts₀ : Prop where
  pads_S8x128x96x320_S8x128x96x328_000_000_000_440 : S8x128x96x320.Pads (![0, 0, 0, 4] : Fin 4 → Nat) ![0, 0, 0, 4] ![0, 0, 0, 0] S8x128x96x328
  h_S_ : 0 < S_.numel
  sliceFits_S8x128x96x328_S8x128x96x320 : S8x128x96x328.Slices (fun _ => 0) S8x128x96x320
  reducesTo_S8x128x96x320_S8x96x320_d1 : S8x128x96x320.ReducesTo [1] S8x96x320
  bcast_S_S8x96x320 : S_.BroadcastsInDim S8x96x320 (![] : Fin 0 → Fin S8x96x320.rank)
  bcast_S8x96x320_S8x1x96x320_0_2_3 : S8x96x320.BroadcastsInDim S8x1x96x320 (![0, 2, 3] : Fin 3 → Fin S8x1x96x320.rank)
  concatenates_S8x1x96x320_S8x1x96x320_S8x1x96x320_S8x1x96x320_S8x1x96x320_S8x1x96x320_S8x1x96x320_S8x1x96x320_S8x1x96x320_S8x9x96x320_d1 : Shape.Concatenates [S8x1x96x320, S8x1x96x320, S8x1x96x320, S8x1x96x320, S8x1x96x320, S8x1x96x320, S8x1x96x320, S8x1x96x320, S8x1x96x320] S8x9x96x320 1

variable [Facts₀]

class Facts : Prop extends Facts₀ where

variable [Facts]
-- ==== Proof.KBodyB.lean ====
/-
  The kernel's body as printed (before idealization), run once at symbolic operands: the same text as the idealized
  kernel's run (Proof/KBody.lean) with the program's namespace substituted — the two programs differ in no operation.

  The body zeroes the accumulator scratch `[9, 24, 320]`; for each of the four chunks of 32 channels it loads the
  chunk of both input blocks and, for each of the nine displacements, loads the displacement's slab of the
  accumulator, adds the chunk's channel sum of products, and stores the slab back; at the end it loads the whole
  accumulator, scales it, and stores it through the whole output block. Every access is inside its buffer and every
  buffer is held whole, so the run goes through; what the output buffer ends holding is a term over the two input
  buffers' contents alone (the stores cover the output block; every accumulator load is covered by earlier stores),
  found by the run itself as the witness of a subtype. `outAt` reads that witness as a function of what the two
  input buffers READ, and `sound_kernel` restates the run over buffers owned at read contents.
-/
import proofs.«106713_j74363063763057_2_alg».proof.Proof.Gen.Kernel.Frame
import proofs.«106713_j74363063763057_2_alg».proof.Proof.Gen.Kernel.Skeleton

set_option maxRecDepth 16384

noncomputable section

namespace Cert.Kernel.KBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents type, and its elements held at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 4000000 in
/-- What the body leaves in the output buffer (over the two input buffers' contents), WITH the proof that from the
    four buffers held — the inputs at `f2`, `f3`, the output and the scratch at anything — the kernel runs to its
    return handing back the inputs as they were, the output at the witness, the scratch at something. -/
noncomputable def kernelRun (c : Dev nD) (i : grid0.Coords)
    (M2 : Memref sig .tc .vmem S1x128x24x320 .f32) (h2 : M2.IsWhole) (M3 : Memref sig .tc .vmem S1x128x24x320 .f32) (h3 : M3.IsWhole)
    (M4 : Memref sig .tc .vmem S1x9x24x320 .f32) (h4 : M4.IsWhole) (M5 : Memref sig .tc .vmem S9x24x320 .f32) (h5 : M5.IsWhole)
    (f2 : Bf (F := F) c M2) (f3 : Bf (F := F) c M3) :
    { W : Bf (F := F) c M4 //
      ∀ (f4 : Bf (F := F) c M4) (f5 : Bf (F := F) c M5) (E : Set ℕ) (Q : PUnit → sProp 𝕄),
        iprop(pt c M2 f2 ∗ pt c M3 f3 ∗ pt c M4 f4 ∗ pt c M5 f5
          ∗ (iprop(pt c M2 f2 ∗ pt c M3 f3 ∗ pt c M4 W ∗ (∃ f, pt c M5 f)) -∗ Q ⟨⟩))
        ⊢ wp frame (wpE (defs₀ (F := F)) Variants.none c none) E (cc0__corr_kernel i M2 h2 M3 h3 M4 h4 M5 h5) Q } := by
  refine ⟨?_, fun f4 f5 E Q => ?run⟩
  case run =>
    iintro ⟨H2, H3, H4, H5, Hk⟩
    sl_exec_parts!
    sl_step
    iapply Hk
    isplitl [H2]; · iexact H2
    isplitl [H3]; · iexact H3
    isplitl [H4]; · iexact H4
    iexists _; iexact H5

/-- What the output buffer READS after the body, as a function of what the two input buffers read (a whole
    memref's contents are determined by what it reads). -/
def outAt (c : Dev nD) (i : grid0.Coords)
    (M2 : Memref sig .tc .vmem S1x128x24x320 .f32) (h2 : M2.IsWhole) (M3 : Memref sig .tc .vmem S1x128x24x320 .f32) (h3 : M3.IsWhole)
    (M4 : Memref sig .tc .vmem S1x9x24x320 .f32) (h4 : M4.IsWhole) (M5 : Memref sig .tc .vmem S9x24x320 .f32) (h5 : M5.IsWhole)
    (x0 x1 : Vec F S1x128x24x320 .f32) : Vec F S1x9x24x320 .f32 :=
  M4.view.read (Elt F) (kernelRun c i M2 h2 M3 h3 M4 h4 M5 h5 (h2.unread x0) (h3.unread x1)).1

/-- The body on whole memrefs, the inputs' owned at read contents `x0`, `x1`, the output's and the scratch's at
    anything: it runs to the continuation holding the inputs as they were, the output at `outAt` of the inputs, the
    scratch at something. -/
theorem sound_kernel (c : Dev nD) (E : Set ℕ) (i : grid0.Coords)
    (M2 : Memref sig .tc .vmem S1x128x24x320 .f32) (h2 : M2.IsWhole) (M3 : Memref sig .tc .vmem S1x128x24x320 .f32) (h3 : M3.IsWhole)
    (M4 : Memref sig .tc .vmem S1x9x24x320 .f32) (h4 : M4.IsWhole) (M5 : Memref sig .tc .vmem S9x24x320 .f32) (h5 : M5.IsWhole)
    (x0 x1 : Vec F S1x128x24x320 .f32) (K : PUnit → sProp 𝕄) :
    iprop(owns (c : Thread nD τ) M2 fullShare x0 ∗ owns (c : Thread nD τ) M3 fullShare x1
        ∗ (∃ d, owns (c : Thread nD τ) M4 fullShare d) ∗ (∃ d, owns (c : Thread nD τ) M5 fullShare d)
        ∗ (iprop(owns (c : Thread nD τ) M2 fullShare x0 ∗ owns (c : Thread nD τ) M3 fullShare x1
              ∗ owns (c : Thread nD τ) M4 fullShare (outAt c i M2 h2 M3 h3 M4 h4 M5 h5 x0 x1)
              ∗ (∃ d, owns (c : Thread nD τ) M5 fullShare d)) -∗ K ⟨⟩))
      ⊢ wp frame (wpE (defs₀ (F := F)) Variants.none c none) E (cc0__corr_kernel i M2 h2 M3 h3 M4 h4 M5 h5) K := by
  unfold owns
  iintro ⟨⟨%f2, %hf2, H2⟩, ⟨%f3, %hf3, H3⟩, ⟨%d4, %f4, -, H4⟩, ⟨%d5, %f5, -, H5⟩, Hk⟩
  subst hf2 hf3
  iapply ((kernelRun c i M2 h2 M3 h3 M4 h4 M5 h5 f2 f3).2 f4 f5 E K)
  isplitl [H2]; · iexact H2
  isplitl [H3]; · iexact H3
  isplitl [H4]; · iexact H4
  isplitl [H5]; · iexact H5
  iintro ⟨H2, H3, H4, ⟨%g5, H5⟩⟩
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold outAt
    rw [h2.unread_read, h3.unread_read]
  · iexists _; iexists g5; isplitr; · ipureintro; rfl
    iexact H5

end Cert.Kernel.KBody

end
-- ==== Proof.KFrameB.lean ====
/-
  The frame of the kernel as printed (before idealization): the same text as the idealized kernel's (Proof/KFrame.lean) with the
  program's namespace substituted.

  At every grid point the pipeline hands the body the two input blocks (each `[1, 128, 24, 320]`: one batch entry, all
  channels, 24 rows) in staging buffers, an output staging buffer, and the accumulator scratch (held in the
  region's invariant: the body may use it and need not describe what it leaves there). The body leaves the input
  blocks in place and the output buffer at what the run's witness reads, a function of the two input blocks (Proof/KBody.lean). From that: the proof
  data, each input's buffer at its block whether fetched at the point or not, the body obligation, the run of the
  whole program, and the frame — the argument arrays end unchanged.
-/
import proofs.«106713_j74363063763057_2_alg».proof.Proof.KBodyB

set_option maxRecDepth 16384

noncomputable section

namespace Cert.Kernel.KFrame

open Cert.Kernel Cert.Kernel.Gen Cert.Kernel.KBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's staging buffer reads after the body at point `t`, from what the two inputs' staging buffers
    read: the run's witness at the point's own staging memrefs and the accumulator scratch. -/
abbrev outBlk (c : Dev nD) (t : Fin cfg0.N) (x0 x1 : Vec F S1x128x24x320 .f32) : Vec F S1x9x24x320 .f32 :=
  outAt c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (Memref.whole cc0_scratch0) (Memref.isWhole_whole _) x0 x1

/-- The proof data of the one pipeline on core `c`: the arrays as the region finds them; after the body at point `t`
    each input's buffer at its block and the output's at `outBlk` of the two input blocks; the invariant the scoped rest
    (the accumulator scratch, at anything) and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk c t (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk c t (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, the accumulator scratch is taken out of the
    invariant whole at whatever it holds and put back at whatever the body leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl]
  unfold Pipeline.ΦA
  rw [scopedRest0_eq]
  iintro ⟨⟨⟨%fs, Hs⟩, Hg⟩, Ho, ⟨%d0, H0⟩, ⟨%d1, H1⟩, ⟨%d2, H2⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [Hs]
  · iexists fs; rw [owns_whole]; iexact Hs
  iintro ⟨H0, H1, H2, ⟨%d5, H5⟩⟩
  isplitl [H5 Hg]
  · isplitl [H5]
    · iexists d5; rw [← owns_whole]; iexact H5
    · iexact Hg
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.KFrame

end
-- ==== Proof.KBody.lean ====
/-
  The kernel's body, run once at symbolic operands.

  The body zeroes the accumulator scratch `[9, 24, 320]`; for each of the four chunks of 32 channels it loads the
  chunk of both input blocks and, for each of the nine displacements, loads the displacement's slab of the
  accumulator, adds the chunk's channel sum of products, and stores the slab back; at the end it loads the whole
  accumulator, scales it, and stores it through the whole output block. Every access is inside its buffer and every
  buffer is held whole, so the run goes through; what the output buffer ends holding is a term over the two input
  buffers' contents alone (the stores cover the output block; every accumulator load is covered by earlier stores),
  found by the run itself as the witness of a subtype. `outAt` reads that witness as a function of what the two
  input buffers READ, and `sound_kernel` restates the run over buffers owned at read contents.
-/
import proofs.«106713_j74363063763057_2_alg».proof.Proof.Gen.KernelIdeal.Frame
import proofs.«106713_j74363063763057_2_alg».proof.Proof.Gen.KernelIdeal.Skeleton

set_option maxRecDepth 16384

noncomputable section

namespace Cert.KernelIdeal.KBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents type, and its elements held at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

set_option maxHeartbeats 4000000 in
/-- What the body leaves in the output buffer (over the two input buffers' contents), WITH the proof that from the
    four buffers held — the inputs at `f2`, `f3`, the output and the scratch at anything — the kernel runs to its
    return handing back the inputs as they were, the output at the witness, the scratch at something. -/
noncomputable def kernelRun (c : Dev nD) (i : grid0.Coords)
    (M2 : Memref sig .tc .vmem S1x128x24x320 .f32) (h2 : M2.IsWhole) (M3 : Memref sig .tc .vmem S1x128x24x320 .f32) (h3 : M3.IsWhole)
    (M4 : Memref sig .tc .vmem S1x9x24x320 .f32) (h4 : M4.IsWhole) (M5 : Memref sig .tc .vmem S9x24x320 .f32) (h5 : M5.IsWhole)
    (f2 : Bf (F := F) c M2) (f3 : Bf (F := F) c M3) :
    { W : Bf (F := F) c M4 //
      ∀ (f4 : Bf (F := F) c M4) (f5 : Bf (F := F) c M5) (E : Set ℕ) (Q : PUnit → sProp 𝕄),
        iprop(pt c M2 f2 ∗ pt c M3 f3 ∗ pt c M4 f4 ∗ pt c M5 f5
          ∗ (iprop(pt c M2 f2 ∗ pt c M3 f3 ∗ pt c M4 W ∗ (∃ f, pt c M5 f)) -∗ Q ⟨⟩))
        ⊢ wp frame (wpE (defs₀ (F := F)) Variants.none c none) E (cc0__corr_kernel i M2 h2 M3 h3 M4 h4 M5 h5) Q } := by
  refine ⟨?_, fun f4 f5 E Q => ?run⟩
  case run =>
    iintro ⟨H2, H3, H4, H5, Hk⟩
    sl_exec_parts!
    sl_step
    iapply Hk
    isplitl [H2]; · iexact H2
    isplitl [H3]; · iexact H3
    isplitl [H4]; · iexact H4
    iexists _; iexact H5

/-- What the output buffer READS after the body, as a function of what the two input buffers read (a whole
    memref's contents are determined by what it reads). -/
def outAt (c : Dev nD) (i : grid0.Coords)
    (M2 : Memref sig .tc .vmem S1x128x24x320 .f32) (h2 : M2.IsWhole) (M3 : Memref sig .tc .vmem S1x128x24x320 .f32) (h3 : M3.IsWhole)
    (M4 : Memref sig .tc .vmem S1x9x24x320 .f32) (h4 : M4.IsWhole) (M5 : Memref sig .tc .vmem S9x24x320 .f32) (h5 : M5.IsWhole)
    (x0 x1 : Vec F S1x128x24x320 .f32) : Vec F S1x9x24x320 .f32 :=
  M4.view.read (Elt F) (kernelRun c i M2 h2 M3 h3 M4 h4 M5 h5 (h2.unread x0) (h3.unread x1)).1

/-- The body on whole memrefs, the inputs' owned at read contents `x0`, `x1`, the output's and the scratch's at
    anything: it runs to the continuation holding the inputs as they were, the output at `outAt` of the inputs, the
    scratch at something. -/
theorem sound_kernel (c : Dev nD) (E : Set ℕ) (i : grid0.Coords)
    (M2 : Memref sig .tc .vmem S1x128x24x320 .f32) (h2 : M2.IsWhole) (M3 : Memref sig .tc .vmem S1x128x24x320 .f32) (h3 : M3.IsWhole)
    (M4 : Memref sig .tc .vmem S1x9x24x320 .f32) (h4 : M4.IsWhole) (M5 : Memref sig .tc .vmem S9x24x320 .f32) (h5 : M5.IsWhole)
    (x0 x1 : Vec F S1x128x24x320 .f32) (K : PUnit → sProp 𝕄) :
    iprop(owns (c : Thread nD τ) M2 fullShare x0 ∗ owns (c : Thread nD τ) M3 fullShare x1
        ∗ (∃ d, owns (c : Thread nD τ) M4 fullShare d) ∗ (∃ d, owns (c : Thread nD τ) M5 fullShare d)
        ∗ (iprop(owns (c : Thread nD τ) M2 fullShare x0 ∗ owns (c : Thread nD τ) M3 fullShare x1
              ∗ owns (c : Thread nD τ) M4 fullShare (outAt c i M2 h2 M3 h3 M4 h4 M5 h5 x0 x1)
              ∗ (∃ d, owns (c : Thread nD τ) M5 fullShare d)) -∗ K ⟨⟩))
      ⊢ wp frame (wpE (defs₀ (F := F)) Variants.none c none) E (cc0__corr_kernel i M2 h2 M3 h3 M4 h4 M5 h5) K := by
  unfold owns
  iintro ⟨⟨%f2, %hf2, H2⟩, ⟨%f3, %hf3, H3⟩, ⟨%d4, %f4, -, H4⟩, ⟨%d5, %f5, -, H5⟩, Hk⟩
  subst hf2 hf3
  iapply ((kernelRun c i M2 h2 M3 h3 M4 h4 M5 h5 f2 f3).2 f4 f5 E K)
  isplitl [H2]; · iexact H2
  isplitl [H3]; · iexact H3
  isplitl [H4]; · iexact H4
  isplitl [H5]; · iexact H5
  iintro ⟨H2, H3, H4, ⟨%g5, H5⟩⟩
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    unfold outAt
    rw [h2.unread_read, h3.unread_read]
  · iexists _; iexists g5; isplitr; · ipureintro; rfl
    iexact H5

end Cert.KernelIdeal.KBody

end
-- ==== Proof.KFrame.lean ====
/-
  The frame of the idealized kernel, and the run with its result array named.

  At every grid point the pipeline hands the body the two input blocks (each `[1, 128, 24, 320]`: one batch entry, all
  channels, 24 rows) in staging buffers, an output staging buffer, and the accumulator scratch (held in the
  region's invariant: the body may use it and need not describe what it leaves there). The body leaves the input
  blocks in place and the output buffer at what the run's witness reads, a function of the two input blocks (Proof/KBody.lean). From that: the proof
  data, each input's buffer at its block whether fetched at the point or not, the body obligation, the run of the
  whole program, and the frame — the argument arrays end unchanged.
-/
import proofs.«106713_j74363063763057_2_alg».proof.Proof.KBody

set_option maxRecDepth 16384

noncomputable section

namespace Cert.KernelIdeal.KFrame

open Cert.KernelIdeal Cert.KernelIdeal.Gen Cert.KernelIdeal.KBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's staging buffer reads after the body at point `t`, from what the two inputs' staging buffers
    read: the run's witness at the point's own staging memrefs and the accumulator scratch. -/
abbrev outBlk (c : Dev nD) (t : Fin cfg0.N) (x0 x1 : Vec F S1x128x24x320 .f32) : Vec F S1x9x24x320 .f32 :=
  outAt c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (Memref.whole cc0_scratch0) (Memref.isWhole_whole _) x0 x1

/-- The proof data of the one pipeline on core `c`: the arrays as the region finds them; after the body at point `t`
    each input's buffer at its block and the output's at `outBlk` of the two input blocks; the invariant the scoped rest
    (the accumulator scratch, at anything) and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk c t (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outBlk c t (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, the accumulator scratch is taken out of the
    invariant whole at whatever it holds and put back at whatever the body leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  rw [show (dats m 0 c).Φ t.castSucc = Pipeline.ΦA spec0 c from rfl]
  unfold Pipeline.ΦA
  rw [scopedRest0_eq]
  iintro ⟨⟨⟨%fs, Hs⟩, Hg⟩, Ho, ⟨%d0, H0⟩, ⟨%d1, H1⟩, ⟨%d2, H2⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [Hs]
  · iexists fs; rw [owns_whole]; iexact Hs
  iintro ⟨H0, H1, H2, ⟨%d5, H5⟩⟩
  isplitl [H5 Hg]
  · isplitl [H5]
    · iexists d5; rw [← owns_whole]; iexact H5
    · iexact Hg
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and every final state has every array of the pipeline at
    what the library computes from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end without a fault and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.KFrame

end
-- ==== Proof.KWit.lean ====
/-
  The run's witness, by name: what the body leaves in the output buffer is the ONE store through the whole output block —
  the scaled accumulator — written over anything (the buffer's earlier contents do not matter: the store covers it).
-/
import proofs.«106713_j74363063763057_2_alg».proof.Proof.KBody

set_option maxRecDepth 65536

noncomputable section

namespace Cert.KernelIdeal.KBody

open Cert.KernelIdeal Cert.KernelIdeal.Gen
open Idealize.ShloMosaic Idealize.ShloMosaic.TcCoe
open Idealize.SL Idealize.SL.Sem

variable {F : FTy → Type} [FloatOps F]

set_option maxHeartbeats 4000000 in
/-- The witness of the run is the list of the output's stores (one piece: the whole block) written over junk. -/
theorem kernelRun_val (c : Dev nD) (i : grid0.Coords)
    (M2 : Memref sig .tc .vmem S1x128x24x320 .f32) (h2 : M2.IsWhole) (M3 : Memref sig .tc .vmem S1x128x24x320 .f32) (h3 : M3.IsWhole)
    (M4 : Memref sig .tc .vmem S1x9x24x320 .f32) (h4 : M4.IsWhole) (M5 : Memref sig .tc .vmem S9x24x320 .f32) (h5 : M5.IsWhole)
    (f2 : Bf (F := F) c M2) (f3 : Bf (F := F) c M3) :
    (kernelRun c i M2 h2 M3 h3 M4 h4 M5 h5 f2 f3).1 = M4.view.writes (Elt F) M4.view.junk (kernelRun.sl.H4_1 c M2 M3 M5 f2 f3) :=
  rfl

end Cert.KernelIdeal.KBody

end
-- ==== Proof.Spec.lean ====
/-
  The one-dimensional correlation both programs compute, as ONE function of the two argument arrays.

  For arrays `a0 a1 : [8, 128, 96, 320]` (batch, channel, row, column) and a displacement `d : Fin 9` standing for the
  horizontal offset `d - 4 ∈ {-4, …, 4}`, the result at `(b, d, h, x)` is the mean over the 128 channels of
  `a0[b, ch, h, x] · a1[b, ch, h, x + d - 4]`, the second factor read as ZERO when the column `x + d - 4` falls outside
  `[0, 320)`. The mean is the sum times `1/128` (on the extended reals the quotient by 128 and the product with its
  reciprocal are one function).

  Also here: regrouping a sum over 128 channels as four sums over 32 (the kernel adds the channels a chunk at a time
  into an accumulator that starts at zero), which needs only that addition of extended reals is commutative and
  associative.
-/
import Idealize.ShloMosaic.PureOps.Ideal
import Idealize.ShloMosaic.Lib.ValueIdx

noncomputable section

namespace Cert.Corr

open Idealize.ShloMosaic Idealize.ShloMosaic.ValueIdx

/-- The argument arrays' shape and the result's. -/
abbrev SA : Shape := ⟨4, ![8, 128, 96, 320]⟩
abbrev SO : Shape := ⟨4, ![8, 9, 96, 320]⟩

/-- Column `x + d - 4` is inside the row. -/
abbrev inRow (x : Fin 320) (d : Fin 9) : Prop := 4 ≤ x.val + d.val ∧ x.val + d.val < 324

/-- The shifted column, when it is inside the row. -/
abbrev shiftCol (x : Fin 320) (d : Fin 9) (h : inRow x d) : Fin 320 := ⟨x.val + d.val - 4, by have := h.1; have := h.2; omega⟩

/-- The second array read `d - 4` columns to the right of `x`, zero outside the row. -/
def shifted (a1 : FVec Ideal SA .f32) (b : Fin 8) (ch : Fin 128) (h : Fin 96) (x : Fin 320) (d : Fin 9) : EReal :=
  if hx : inRow x d then a1 (ix4 b ch h (shiftCol x d hx)) else 0

/-- The correlation at explicit coordinates: the channel sum times `1/128`. -/
def corrAt (a0 a1 : FVec Ideal SA .f32) (b : Fin 8) (d : Fin 9) (h : Fin 96) (x : Fin 320) : EReal :=
  (∑ ch : Fin 128, a0 (ix4 b ch h x) * shifted a1 b ch h x d) * ((1 / 128 : ℝ) : EReal)

/-- The correlation as a whole array. -/
def corr (a0 a1 : FVec Ideal SA .f32) : FVec Ideal SO .f32 := fun i => corrAt a0 a1 (i 0) (i 1) (i 2) (i 3)

theorem corr_ix4 (a0 a1 : FVec Ideal SA .f32) (b : Fin 8) (d : Fin 9) (h : Fin 96) (x : Fin 320) :
    corr a0 a1 (ix4 b d h x) = corrAt a0 a1 b d h x := rfl

/-- Channel `32 k + c` of chunk `k`. -/
abbrev chan (k : Fin 4) (c : Fin 32) : Fin 128 := ⟨32 * k.val + c.val, by have := k.isLt; have := c.isLt; omega⟩

/-- A sum over the 128 channels is the sum over the four chunks of the sums over each chunk's 32 channels. -/
theorem sum_chunks {M : Type} [AddCommMonoid M] (f : Fin 128 → M) :
    ∑ ch : Fin 128, f ch = ∑ k : Fin 4, ∑ c : Fin 32, f (chan k c) := by
  rw [← Finset.sum_product']
  refine (Finset.sum_bij' (fun (p : Fin 4 × Fin 32) _ => chan p.1 p.2)
    (fun (ch : Fin 128) _ => ((⟨ch.val / 32, by have := ch.isLt; omega⟩ : Fin 4), (⟨ch.val % 32, Nat.mod_lt _ (by decide)⟩ : Fin 32)))
    (fun _ _ => Finset.mem_univ _) (fun _ _ => Finset.mem_univ _) ?_ ?_ (fun _ _ => rfl)).symm
  · rintro ⟨k, c⟩ -
    have hk := k.isLt; have hc := c.isLt
    refine Prod.ext (Fin.ext ?_) (Fin.ext ?_)
    · show (32 * k.val + c.val) / 32 = k.val; omega
    · show (32 * k.val + c.val) % 32 = c.val; omega
  · intro ch _
    refine Fin.ext ?_
    show 32 * (ch.val / 32) + ch.val % 32 = ch.val; omega

/-- The accumulator: from zero, one chunk's sum added per step, in the kernel's order. -/
theorem acc_chunks {M : Type} [AddCommMonoid M] (g : Fin 4 → M) :
    (((0 + g 0) + g 1) + g 2) + g 3 = ∑ k : Fin 4, g k := by
  rw [Fin.sum_univ_four, zero_add]

end Cert.Corr

end
-- ==== Proof.SlabValue.lean ====
/-
  One displacement's update of the correlation accumulator, read at an index.

  For a chunk of 32 channels the kernel holds two blocks a, b : [32, 24, 320] (channel, row, column) and, for each
  displacement d = 0, …, 8 (the horizontal offset d - 4), adds to slab d of its accumulator the sum over the 32 channels
  of a · b', where b' is b moved d - 4 columns: b rotated along the columns and then masked to zero wherever the
  rotation wrapped around the end of the row. This module writes that update as one term of the two blocks and the
  slab's old value, and shows that at the extended reals its entry (0, y, x) is

      old (0, y, x) + ∑ c, a (c, y, x) · (b (c, y, x + d - 4) if 0 ≤ x + d - 4 < 320, else 0).

  The mathematics. A rotation by s along an axis of extent 320 reads, at column x, column (x + 320 - s mod 320) mod 320.
  For d < 4 the rotation is by 4 - d and the mask keeps the columns x ≥ 4 - d: there x + 320 - (4 - d) ≥ 320, so the
  column read is x + d - 4. For d > 4 the rotation is by 320 - (d - 4) and the mask keeps the columns x < 320 - (d - 4):
  there x + (d - 4) < 320 is the column read. In both cases the mask holds exactly when the column x + d - 4 is inside the
  row. The comparisons are signed, of a column number and a constant, both below 2³¹, so they compare the numbers.
  A masked-out entry is the zero word, which is the real 0; nothing here needs a finiteness hypothesis
  (the sum is a plain finite sum on the extended reals, term by term equal on both sides).
-/
import proofs.«106713_j74363063763057_2_alg».proof.KernelIdeal
import proofs.«106713_j74363063763057_2_alg».proof.Proof.Spec
import Idealize.ShloMosaic.Lib.KernelVsHost
import Idealize.ShloMosaic.Lib.Pipeline.Value
import Idealize.ShloMosaic.Lib.ValueIdx
import Idealize.ShloMosaic.Lib.ValueLayout
import Idealize.ShloMosaic.Lib.WordArith
import Idealize.ShloMosaic.PureOps.Ideal.Laws

noncomputable section
namespace Cert.SlabValue

open Idealize.ShloMosaic Idealize.ShloMosaic.ValueIdx
open Cert.KernelIdeal Cert.KernelIdeal.Facts₀ Cert.KernelIdeal.Facts

variable [Cert.KernelIdeal.Facts]

/-! ## The update as a term -/

section Term
variable {F : FTy → Type} [FloatOps F]

/-- The update of one slab for a displacement other than the middle one: the second block rotated by \`sh\` along the
    columns, masked by the comparison \`pr\` of the column number with \`cst\`, multiplied into the first block, summed over
    the channels and added to the slab's old value. -/
def slabRot (sh : BitVec 32) (pr : CmpIPredicate) (cst : BitVec 32) (v9 v13 : Vec F S32x24x320 .f32)
    (old : Vec F S1x24x320 .f32) : FVec F S1x24x320 .f32 :=
  have v14 : FVec F S32x24x320 .f32 := dynamicRotate 2 sh none v13 rotates_S32x24x320_d2
  have v15 : IVec S32x24x320 32 := iota .tc S32x24x320 32 [2] iota_S32x24x320_d2_w32
  have v16 : IVec S32x24x320 32 := broadcast S32x24x320 cst
  have v17 : IVec S32x24x320 1 := cmpi pr v15 v16
  have v18 : FVec F S32x24x320 .f32 := broadcast S32x24x320 (Scalar.ofBits .f32 0x00000000#32)
  have v19 : FVec F S32x24x320 .f32 := select v17 v14 v18
  have v20 : FVec F S32x24x320 .f32 := mulf v9 v19
  have v21 : FVec F S24x320 .f32 := multiReduction .add [0] S24x320 v20 0x00000000#32 reduces_S32x24x320_S24x320 (.inl rfl) rfl
  have v23 : FVec F S24x320 .f32 := shapeCast S24x320 old shapeCasts_S1x24x320_S24x320
  have v24 : FVec F S24x320 .f32 := addf v23 v21
  shapeCast S1x24x320 v24 shapeCasts_S24x320_S1x24x320

/-- The update of the middle slab (no displacement): the blocks multiplied as they are. -/
def slabPlain (v9 v13 : Vec F S32x24x320 .f32) (old : Vec F S1x24x320 .f32) : FVec F S1x24x320 .f32 :=
  have v20 : FVec F S32x24x320 .f32 := mulf v9 v13
  have v21 : FVec F S24x320 .f32 := multiReduction .add [0] S24x320 v20 0x00000000#32 reduces_S32x24x320_S24x320 (.inl rfl) rfl
  have v23 : FVec F S24x320 .f32 := shapeCast S24x320 old shapeCasts_S1x24x320_S24x320
  have v24 : FVec F S24x320 .f32 := addf v23 v21
  shapeCast S1x24x320 v24 shapeCasts_S24x320_S1x24x320

end Term

/-! ## Signed comparisons of small numbers -/

/-- A number below 2³¹, as a 32-bit word read signed, is itself. -/
theorem toInt_ofNat_small (n : Nat) (hn : n < 2 ^ 31) : (BitVec.ofNat 32 n).toInt = (n : Int) := by
  have e := BitVec.toInt_eq_toNat_cond (BitVec.ofNat 32 n)
  rw [BitVec.toNat_ofNat, Nat.mod_eq_of_lt (by omega)] at e
  omega

/-- "Signed greater or equal" of two numbers below 2³¹ holds exactly when the first is at least the second. -/
theorem cmpi_sge_small (n k : Nat) (hn : n < 2 ^ 31) (hk : k < 2 ^ 31) :
    IntOp.cmpi .sge (BitVec.ofNat 32 n) (BitVec.ofNat 32 k) = 1#1 ↔ k ≤ n := by
  simp only [IntOp.cmpi, WordArith.ofBool_eq_one_iff, BitVec.sle_iff_toInt_le, toInt_ofNat_small n hn, toInt_ofNat_small k hk]
  omega

/-- "Signed less" of two numbers below 2³¹ holds exactly when the first is below the second. -/
theorem cmpi_slt_small (n k : Nat) (hn : n < 2 ^ 31) (hk : k < 2 ^ 31) :
    IntOp.cmpi .slt (BitVec.ofNat 32 n) (BitVec.ofNat 32 k) = 1#1 ↔ n < k := by
  simp only [IntOp.cmpi, WordArith.ofBool_eq_one_iff, BitVec.slt_iff_toInt_lt, toInt_ofNat_small n hn, toInt_ofNat_small k hk]
  omega

/-! ## The operations of the update at an index -/

/-- The index a channel sum over axis 0 inserts its coordinate at: channel \`c\` put in front of \`(y, x)\`. -/
theorem lift_ix (y : Fin 24) (x : Fin 320) (c : Fin 32) :
    reduces_S32x24x320_S24x320.lift (ix2 y x) c = ix3 c y x := by
  funext a
  match a with
  | ⟨0, _⟩ => exact Fin.ext rfl
  | ⟨1, _⟩ => exact Fin.ext rfl
  | ⟨2, _⟩ => exact Fin.ext rfl

/-- The channel sum at \`(y, x)\`: the sum over the 32 channels of the entries \`(c, y, x)\`. -/
theorem laneSum_apply (src : FVec Ideal S32x24x320 .f32) (y : Fin 24) (x : Fin 320) :
    multiReduction (F := Ideal) .add [0] S24x320 src 0x00000000#32 reduces_S32x24x320_S24x320 (.inl rfl) rfl (ix2 y x)
      = ∑ c : Fin 32, src (ix3 c y x) := by
  refine (Ideal.multiReduction_add_single src 0x00000000#32 reduces_S32x24x320_S24x320 (.inl rfl) rfl (ix2 y x)).trans ?_
  exact Finset.sum_congr rfl fun c _ => congrArg src (lift_ix y x c)

/-- The column-number vector at \`(c, y, x)\` is the word of \`x\`. -/
theorem colWord_apply (c : Fin 32) (y : Fin 24) (x : Fin 320) :
    iota .tc S32x24x320 32 [2] iota_S32x24x320_d2_w32 (ix3 c y x) = BitVec.ofNat 32 x.val :=
  iota_single_apply .tc S32x24x320 32 2 iota_S32x24x320_d2_w32 (ix3 c y x)

/-- A block rotated by \`sh\` along the columns reads, at column \`x\`, the column \`x'\` that is \`x\` moved back by \`sh\` around
    the end of the row. -/
theorem rot_apply {α : Type} (sh : BitVec 32) (v : S32x24x320.Idx → α) (c : Fin 32) (y : Fin 24) (x x' : Fin 320)
    (hx : x'.val = (x.val + 320 - sh.toNat % 320) % 320) :
    dynamicRotate 2 sh none v rotates_S32x24x320_d2 (ix3 c y x) = v (ix3 c y x') :=
  dynamicRotate_apply 2 sh v rotates_S32x24x320_d2 (ix3 c y x) (ix3 c y x') (fun b =>
    match b with
    | ⟨0, _⟩ => rfl
    | ⟨1, _⟩ => rfl
    | ⟨2, _⟩ => hx)

/-! ## The update at an index -/

/-- The update written as one nested term (the same term, its intermediate names inlined). -/
theorem slabRot_eq {F : FTy → Type} [FloatOps F] (sh : BitVec 32) (pr : CmpIPredicate) (cst : BitVec 32)
    (v9 v13 : Vec F S32x24x320 .f32) (old : Vec F S1x24x320 .f32) :
    slabRot sh pr cst v9 v13 old
      = shapeCast S1x24x320
          (addf (shapeCast S24x320 old shapeCasts_S1x24x320_S24x320)
            (multiReduction .add [0] S24x320
              (mulf v9 (select (cmpi pr (iota .tc S32x24x320 32 [2] iota_S32x24x320_d2_w32) (broadcast S32x24x320 cst))
                (dynamicRotate 2 sh none v13 rotates_S32x24x320_d2)
                (broadcast S32x24x320 (Scalar.ofBits .f32 0x00000000#32))))
              0x00000000#32 reduces_S32x24x320_S24x320 (.inl rfl) rfl))
          shapeCasts_S24x320_S1x24x320 := rfl

/-- The middle slab's update written as one nested term. -/
theorem slabPlain_eq {F : FTy → Type} [FloatOps F] (v9 v13 : Vec F S32x24x320 .f32) (old : Vec F S1x24x320 .f32) :
    slabPlain v9 v13 old
      = shapeCast S1x24x320
          (addf (shapeCast S24x320 old shapeCasts_S1x24x320_S24x320)
            (multiReduction .add [0] S24x320 (mulf v9 v13) 0x00000000#32 reduces_S32x24x320_S24x320 (.inl rfl) rfl))
          shapeCasts_S24x320_S1x24x320 := rfl

/-- The rotated-and-masked update at \`(0, y, x)\`, for any rotation amount and mask that together move the second block
    \`d - 4\` columns: the mask holds exactly on the columns \`x\` whose shifted column \`x + d - 4\` is inside the row
    (\`hmask\`), and there the rotation reads that column (\`hcol\`). -/
theorem slabRot_apply (sh : BitVec 32) (pr : CmpIPredicate) (cst : BitVec 32) (d : Fin 9)
    (hmask : ∀ x : Fin 320, IntOp.cmpi pr (BitVec.ofNat 32 x.val) cst = 1#1 ↔ Cert.Corr.inRow x d)
    (hcol : ∀ x : Fin 320, Cert.Corr.inRow x d → (x.val + 320 - sh.toNat % 320) % 320 = x.val + d.val - 4)
    (v9 v13 : Vec Ideal S32x24x320 .f32) (old : Vec Ideal S1x24x320 .f32) (y : Fin 24) (x : Fin 320) :
    slabRot (F := Ideal) sh pr cst v9 v13 old (ix3 0 y x)
      = old (ix3 0 y x) + ∑ c : Fin 32, v9 (ix3 c y x) *
          (if h : Cert.Corr.inRow x d then v13 (ix3 c y (Cert.Corr.shiftCol x d h)) else 0) := by
  rw [slabRot_eq, shapeCast_ab_1ab_apply, addf_apply, shapeCast_1ab_ab_apply, laneSum_apply]
  refine congrArg (old (ix3 0 y x) + ·) (Finset.sum_congr rfl fun c _ => ?_)
  rw [mulf_apply, select_apply]
  refine congrArg (v9 (ix3 c y x) * ·) ?_
  show Scalar.select (IntOp.cmpi pr (iota .tc S32x24x320 32 [2] iota_S32x24x320_d2_w32 (ix3 c y x)) cst)
      (dynamicRotate 2 sh none v13 rotates_S32x24x320_d2 (ix3 c y x)) (Ideal.ofBits .f32 0x00000000#32) = _
  rw [colWord_apply]
  by_cases h : Cert.Corr.inRow x d
  · rw [dif_pos h, (hmask x).mpr h, select_one]
    exact rot_apply sh v13 c y x (Cert.Corr.shiftCol x d h) (hcol x h).symm
  · rw [dif_neg h, eq_zero_of_ne_one (fun e => h ((hmask x).mp e)), select_zero]
    exact Ideal.ofBits_zero_f32

/-- The middle slab's update at \`(0, y, x)\`: the old value plus the channel sum of the products. -/
theorem slabPlain_apply (v9 v13 : Vec Ideal S32x24x320 .f32) (old : Vec Ideal S1x24x320 .f32) (y : Fin 24) (x : Fin 320) :
    slabPlain (F := Ideal) v9 v13 old (ix3 0 y x)
      = old (ix3 0 y x) + ∑ c : Fin 32, v9 (ix3 c y x) * v13 (ix3 c y x) := by
  rw [slabPlain_eq, shapeCast_ab_1ab_apply, addf_apply, shapeCast_1ab_ab_apply, laneSum_apply]
  refine congrArg (old (ix3 0 y x) + ·) (Finset.sum_congr rfl fun c _ => ?_)
  rw [mulf_apply]

/-! ## The nine displacements -/

/-- A number below 2³² is its 32-bit word's value. -/
theorem toNat_ofNat_small (k : Nat) (hk : k < 2 ^ 32) : (BitVec.ofNat 32 k).toNat = k := by
  rw [BitVec.toNat_ofNat, Nat.mod_eq_of_lt hk]

/-- A displacement to the LEFT, \`d < 4\`: the rotation is by \`k = 4 - d\` and the mask keeps the columns \`x ≥ k\`. -/
theorem slabRot_left_apply (k : Nat) (d : Fin 9) (hk : k + d.val = 4)
    (v9 v13 : Vec Ideal S32x24x320 .f32) (old : Vec Ideal S1x24x320 .f32) (y : Fin 24) (x : Fin 320) :
    slabRot (F := Ideal) (BitVec.ofNat 32 k) .sge (BitVec.ofNat 32 k) v9 v13 old (ix3 0 y x)
      = old (ix3 0 y x) + ∑ c : Fin 32, v9 (ix3 c y x) *
          (if h : Cert.Corr.inRow x d then v13 (ix3 c y (Cert.Corr.shiftCol x d h)) else 0) := by
  refine slabRot_apply _ _ _ d (fun x => ?_) (fun x h => ?_) v9 v13 old y x
  · have hx := x.isLt
    refine (cmpi_sge_small x.val k (by omega) (by omega)).trans ?_
    show k ≤ x.val ↔ 4 ≤ x.val + d.val ∧ x.val + d.val < 324
    omega
  · have hx := x.isLt
    have h1 : 4 ≤ x.val + d.val := h.1
    rw [toNat_ofNat_small k (by omega)]
    omega

/-- A displacement to the RIGHT, \`d > 4\`: the rotation is by \`k = 320 - (d - 4)\` and the mask keeps the columns \`x < k\`. -/
theorem slabRot_right_apply (k : Nat) (d : Fin 9) (hk : k + d.val = 324) (hd : 4 < d.val)
    (v9 v13 : Vec Ideal S32x24x320 .f32) (old : Vec Ideal S1x24x320 .f32) (y : Fin 24) (x : Fin 320) :
    slabRot (F := Ideal) (BitVec.ofNat 32 k) .slt (BitVec.ofNat 32 k) v9 v13 old (ix3 0 y x)
      = old (ix3 0 y x) + ∑ c : Fin 32, v9 (ix3 c y x) *
          (if h : Cert.Corr.inRow x d then v13 (ix3 c y (Cert.Corr.shiftCol x d h)) else 0) := by
  refine slabRot_apply _ _ _ d (fun x => ?_) (fun x h => ?_) v9 v13 old y x
  · have hx := x.isLt
    have hd9 := d.isLt
    refine (cmpi_slt_small x.val k (by omega) (by omega)).trans ?_
    show x.val < k ↔ 4 ≤ x.val + d.val ∧ x.val + d.val < 324
    omega
  · have hx := x.isLt
    have hd9 := d.isLt
    have h2 : x.val + d.val < 324 := h.2
    rw [toNat_ofNat_small k (by omega)]
    omega

section Nine
variable (v9 v13 : Vec Ideal S32x24x320 .f32) (old : Vec Ideal S1x24x320 .f32) (y : Fin 24) (x : Fin 320)

/-- Displacement 0 (four columns to the left): rotation by 4, mask \`x ≥ 4\`. -/
theorem slab_apply_0 :
    slabRot (F := Ideal) 4#32 .sge 4#32 v9 v13 old (ix3 0 y x)
      = old (ix3 0 y x) + ∑ c : Fin 32, v9 (ix3 c y x) *
          (if h : Cert.Corr.inRow x ⟨0, by omega⟩ then v13 (ix3 c y (Cert.Corr.shiftCol x ⟨0, by omega⟩ h)) else 0) :=
  slabRot_left_apply 4 ⟨0, by omega⟩ rfl v9 v13 old y x

/-- Displacement 1: rotation by 3, mask \`x ≥ 3\`. -/
theorem slab_apply_1 :
    slabRot (F := Ideal) 3#32 .sge 3#32 v9 v13 old (ix3 0 y x)
      = old (ix3 0 y x) + ∑ c : Fin 32, v9 (ix3 c y x) *
          (if h : Cert.Corr.inRow x ⟨1, by omega⟩ then v13 (ix3 c y (Cert.Corr.shiftCol x ⟨1, by omega⟩ h)) else 0) :=
  slabRot_left_apply 3 ⟨1, by omega⟩ rfl v9 v13 old y x

/-- Displacement 2: rotation by 2, mask \`x ≥ 2\`. -/
theorem slab_apply_2 :
    slabRot (F := Ideal) 2#32 .sge 2#32 v9 v13 old (ix3 0 y x)
      = old (ix3 0 y x) + ∑ c : Fin 32, v9 (ix3 c y x) *
          (if h : Cert.Corr.inRow x ⟨2, by omega⟩ then v13 (ix3 c y (Cert.Corr.shiftCol x ⟨2, by omega⟩ h)) else 0) :=
  slabRot_left_apply 2 ⟨2, by omega⟩ rfl v9 v13 old y x

/-- Displacement 3: rotation by 1, mask \`x ≥ 1\`. -/
theorem slab_apply_3 :
    slabRot (F := Ideal) 1#32 .sge 1#32 v9 v13 old (ix3 0 y x)
      = old (ix3 0 y x) + ∑ c : Fin 32, v9 (ix3 c y x) *
          (if h : Cert.Corr.inRow x ⟨3, by omega⟩ then v13 (ix3 c y (Cert.Corr.shiftCol x ⟨3, by omega⟩ h)) else 0) :=
  slabRot_left_apply 1 ⟨3, by omega⟩ rfl v9 v13 old y x

/-- Displacement 4 (no shift), in the same form as the others: the shifted column is \`x\` itself and always inside the row. -/
theorem slab_apply_4 :
    slabPlain (F := Ideal) v9 v13 old (ix3 0 y x)
      = old (ix3 0 y x) + ∑ c : Fin 32, v9 (ix3 c y x) *
          (if h : Cert.Corr.inRow x ⟨4, by omega⟩ then v13 (ix3 c y (Cert.Corr.shiftCol x ⟨4, by omega⟩ h)) else 0) := by
  have hx := x.isLt
  have h : Cert.Corr.inRow x ⟨4, by omega⟩ := by
    show 4 ≤ x.val + 4 ∧ x.val + 4 < 324
    omega
  have hs : Cert.Corr.shiftCol x ⟨4, by omega⟩ h = x := Fin.ext (by show x.val + 4 - 4 = x.val; omega)
  rw [slabPlain_apply]
  refine congrArg (old (ix3 0 y x) + ·) (Finset.sum_congr rfl fun c _ => ?_)
  rw [dif_pos h, hs]

/-- Displacement 5 (one column to the right): rotation by 319, mask \`x < 319\`. -/
theorem slab_apply_5 :
    slabRot (F := Ideal) 319#32 .slt 319#32 v9 v13 old (ix3 0 y x)
      = old (ix3 0 y x) + ∑ c : Fin 32, v9 (ix3 c y x) *
          (if h : Cert.Corr.inRow x ⟨5, by omega⟩ then v13 (ix3 c y (Cert.Corr.shiftCol x ⟨5, by omega⟩ h)) else 0) :=
  slabRot_right_apply 319 ⟨5, by omega⟩ rfl (by decide) v9 v13 old y x

/-- Displacement 6: rotation by 318, mask \`x < 318\`. -/
theorem slab_apply_6 :
    slabRot (F := Ideal) 318#32 .slt 318#32 v9 v13 old (ix3 0 y x)
      = old (ix3 0 y x) + ∑ c : Fin 32, v9 (ix3 c y x) *
          (if h : Cert.Corr.inRow x ⟨6, by omega⟩ then v13 (ix3 c y (Cert.Corr.shiftCol x ⟨6, by omega⟩ h)) else 0) :=
  slabRot_right_apply 318 ⟨6, by omega⟩ rfl (by decide) v9 v13 old y x

/-- Displacement 7: rotation by 317, mask \`x < 317\`. -/
theorem slab_apply_7 :
    slabRot (F := Ideal) 317#32 .slt 317#32 v9 v13 old (ix3 0 y x)
      = old (ix3 0 y x) + ∑ c : Fin 32, v9 (ix3 c y x) *
          (if h : Cert.Corr.inRow x ⟨7, by omega⟩ then v13 (ix3 c y (Cert.Corr.shiftCol x ⟨7, by omega⟩ h)) else 0) :=
  slabRot_right_apply 317 ⟨7, by omega⟩ rfl (by decide) v9 v13 old y x

/-- Displacement 8 (four columns to the right): rotation by 316, mask \`x < 316\`. -/
theorem slab_apply_8 :
    slabRot (F := Ideal) 316#32 .slt 316#32 v9 v13 old (ix3 0 y x)
      = old (ix3 0 y x) + ∑ c : Fin 32, v9 (ix3 c y x) *
          (if h : Cert.Corr.inRow x ⟨8, by omega⟩ then v13 (ix3 c y (Cert.Corr.shiftCol x ⟨8, by omega⟩ h)) else 0) :=
  slabRot_right_apply 316 ⟨8, by omega⟩ rfl (by decide) v9 v13 old y x

end Nine

end Cert.SlabValue

end
-- ==== Proof.KAcc.lean ====
/-
  The kernel's accumulator after all its stores, read at an index.

  The accumulator scratch \`[9, 24, 320]\` (displacement, row, column) is first filled with zeros; then, for each of the
  four chunks of 32 channels in turn and each displacement \`d = 0, …, 8\` in turn, slab \`d\` is loaded, the chunk's
  channel sum of products for that displacement is added, and the slab is stored back. The stores are a list, last
  first; reading the list at an index \`(d, y, x)\` finds the last store whose slab is \`d\`, and that store's value is
  the slab as it was read just before (the same list, one store shorter) plus the chunk's sum. So by induction along
  the 37 stores: after \`n - 1\` slab stores, entry \`(d, y, x)\` holds the sum, in the kernel's order and starting from
  zero, of the chunk sums of the first \`m\` chunks, where \`m\` is the number of stores among them that went to slab \`d\`
  — the stores go round the slabs in order, so \`m = ⌊(n + 7 - d) / 9⌋\`. After all of them \`m = 4\` for every slab.

  A chunk's loads are channels \`32 k, …, 32 k + 31\` of the two input blocks, and one update at an index is the sum
  over the chunk's channels of the first block times the second block moved \`d - 4\` columns (zero outside the row).
-/
import proofs.«106713_j74363063763057_2_alg».proof.Proof.KBody
import proofs.«106713_j74363063763057_2_alg».proof.Proof.SlabValue
import Idealize.ShloMosaic.Lib.Pipeline.FrameBody
import Idealize.ShloMosaic.Lib.ValueIdx

set_option maxRecDepth 16384

noncomputable section

namespace Cert.KernelIdeal.KAcc

open Cert.KernelIdeal Cert.KernelIdeal.Gen Cert.KernelIdeal.KBody
open Idealize.ShloMosaic Idealize.ShloMosaic.TcCoe Idealize.ShloMosaic.ValueIdx
open Idealize.SL Idealize.SL.Sem
open Cert.SlabValue

/-! ## Reading a list of slab stores at an index -/

section Lists
variable {F : FTy → Type} [FloatOps F]

/-- Slab \`d\`'s rectangle places its index \`(0, y, x)\` at \`(d, y, x)\`. -/
theorem slab_emb (d : Fin 9) (h : ∀ a, (![d.val, 0, 0] : Fin 3 → ℕ) a + S1x24x320.size a ≤ S9x24x320.size a)
    (y : Fin 24) (x : Fin 320) :
    (Rect.unit (s := S9x24x320) ![d.val, 0, 0] S1x24x320.size h).emb (ix3 (0 : Fin 1) y x) = ix3 d y x := by
  funext a
  apply Fin.ext
  rw [Rect.emb_apply]
  match a with
  | ⟨0, _⟩ => show d.val + 1 * 0 = d.val; omega
  | ⟨1, _⟩ => show 0 + 1 * y.val = y.val; omega
  | ⟨2, _⟩ => show 0 + 1 * x.val = x.val; omega

/-- A list whose last store went to slab \`d\` reads, in slab \`d\`, that store's value. -/
theorem slab_hit (d : Fin 9) (h : ∀ a, (![d.val, 0, 0] : Fin 3 → ℕ) a + S1x24x320.size a ≤ S9x24x320.size a)
    (p : (Rect.unit (s := S9x24x320) ![d.val, 0, 0] S1x24x320.size h).shape.Idx → Elt F .f32)
    (L : List (View.Piece (Elt F) S9x24x320 .f32)) (y : Fin 24) (x : Fin 320) :
    View.canon (⟨Rect.unit (s := S9x24x320) ![d.val, 0, 0] S1x24x320.size h, p⟩ :: L) (ix3 d y x) = p (ix3 (0 : Fin 1) y x) := by
  rw [← slab_emb d h y x]
  exact View.canon_cons_emb _ p L _

/-- A list whose last store went to another slab reads, in slab \`d\`, what the list without that store reads. -/
theorem slab_miss (d d' : Fin 9) (hne : d ≠ d')
    (h : ∀ a, (![d'.val, 0, 0] : Fin 3 → ℕ) a + S1x24x320.size a ≤ S9x24x320.size a)
    (p : (Rect.unit (s := S9x24x320) ![d'.val, 0, 0] S1x24x320.size h).shape.Idx → Elt F .f32)
    (L : List (View.Piece (Elt F) S9x24x320 .f32)) (y : Fin 24) (x : Fin 320) :
    View.canon (⟨Rect.unit (s := S9x24x320) ![d'.val, 0, 0] S1x24x320.size h, p⟩ :: L) (ix3 d y x) = View.canon L (ix3 d y x) := by
  refine View.canon_cons_of_not_mem _ L (fun hm => ?_)
  have hm' : ix3 d y x ∈ (Rect.unit (s := S9x24x320) ![d'.val, 0, 0] S1x24x320.size h).set := hm
  have h1 := (Rect.mem_set_unit (s := S9x24x320) (off := ![d'.val, 0, 0]) (size := S1x24x320.size) (inb := h) (i := ix3 d y x)).mp hm' (0 : Fin 3)
  have h0 : d'.val ≤ d.val ∧ d.val < d'.val + 1 := h1
  exact hne (Fin.ext (by omega))

/-- A load of slab \`d\` after the stores \`L\` reads, at \`(0, y, x)\`, the list at \`(d, y, x)\`. -/
theorem slabLoad_read (M5 : Memref sig .tc .vmem S9x24x320 .f32) (L : List (View.Piece (Elt F) S9x24x320 .f32)) (d : Fin 9)
    (h : ∀ a, (![d.val, 0, 0] : Fin 3 → ℕ) a + S1x24x320.size a ≤ S9x24x320.size a) (y : Fin 24) (x : Fin 320) :
    M5.view.readCov L (Rect.unit (s := S9x24x320) ![d.val, 0, 0] S1x24x320.size h).toLoadRect (ix3 (0 : Fin 1) y x)
      = View.canon L (ix3 d y x) := by
  rw [View.readCov_eq_canon']
  exact congrArg (View.canon L) (slab_emb d h y x)

end Lists

/-- The zero fill reads zero everywhere. -/
theorem fill_read (d : Fin 9) (y : Fin 24) (x : Fin 320) :
    View.canon (kernelRun.sl.H5_1 (F := Ideal)) (ix3 d y x) = 0 := by
  have e : (Rect.unit (s := S9x24x320) ![0, 0, 0] S9x24x320.size inb_S9x24x320_S9x24x320_0_0_0).emb (ix3 d y x) = ix3 d y x := by
    funext a
    apply Fin.ext
    rw [Rect.emb_apply]
    match a with
    | ⟨0, _⟩ => show 0 + 1 * d.val = d.val; omega
    | ⟨1, _⟩ => show 0 + 1 * y.val = y.val; omega
    | ⟨2, _⟩ => show 0 + 1 * x.val = x.val; omega
  unfold kernelRun.sl.H5_1
  refine (congrArg _ e.symm).trans ((View.canon_cons_emb _ _ _ _).trans ?_)
  unfold k0_pay3
  rw [shapeCast_self]
  exact Ideal.ofBits_zero_f32

/-! ## The chunk loads -/

section Chunks
variable {F : FTy → Type} [FloatOps F]

/-- A load of 32 channels from channel \`off\` of an input block, through the block's view without its leading unit
    axis, reads the block's contents at channel \`off + cc\`. -/
theorem chunk_read (c : Dev nD) (M : Memref sig .tc .vmem S1x128x24x320 .f32) (hs) (off : ℕ)
    (hin : ∀ a, (![off, 0, 0] : Fin 3 → ℕ) a + S32x24x320.size a ≤ S128x24x320.size a) (hoff : off + 32 ≤ 128)
    (f : Buf (Elt F) (M.view.loc (c : Thread nD τ))) (cc : Fin 32) (y : Fin 24) (x : Fin 320) :
    View.readAt (Elt F) ((M.slice (Rect.unit ![0, 0, 0, 0] S1x128x24x320.size inb_S1x128x24x320_S1x128x24x320_0_0_0_0) hs).squeeze
        S128x24x320 squeezes_S1x128x24x320_S128x24x320).view (Rect.unit (s := S128x24x320) ![off, 0, 0] S32x24x320.size hin).toLoadRect f (ix3 cc y x)
      = M.view.read (Elt F) f (ix4 0 ⟨off + cc.val, by have := cc.isLt; omega⟩ y x) := by
  rw [View.readAt_apply]
  show M.view.read (Elt F) f _ = _
  congr 1
  funext a
  apply Fin.ext
  rw [Rect.emb_apply]
  rw [show ((Shape.reshapeEquiv _).toEmbedding ((Rect.unit (s := S128x24x320) ![off, 0, 0] S32x24x320.size hin).idx (ix3 cc y x)))
      = Fin.cons ⟨0, Nat.one_pos⟩ ((Rect.unit (s := S128x24x320) ![off, 0, 0] S32x24x320.size hin).idx (ix3 cc y x)) from Shape.reshapeEquiv_cons_one _ _]
  match a with
  | ⟨0, _⟩ => show 0 + 1 * 0 = 0; rfl
  | ⟨1, _⟩ => show 0 + 1 * (off + 1 * cc.val) = off + cc.val; omega
  | ⟨2, _⟩ => show 0 + 1 * (0 + 1 * y.val) = y.val; omega
  | ⟨3, _⟩ => show 0 + 1 * (0 + 1 * x.val) = x.val; omega

variable (c : Dev nD) (M2 M3 : Memref sig .tc .vmem S1x128x24x320 .f32) (f2 : Bf (F := F) c M2) (f3 : Bf (F := F) c M3)
  (cc : Fin 32) (y : Fin 24) (x : Fin 320)

/-- Chunk 0 of the first block: channels 0 to 31. -/
theorem v9_read : kernelRun.sl.v9 c M2 f2 (ix3 cc y x) = M2.view.read (Elt F) f2 (ix4 0 (Cert.Corr.chan 0 cc) y x) := by
  unfold kernelRun.sl.v9
  exact (chunk_read c M2 _ 0 _ (by omega) f2 cc y x).trans
    (congrArg (fun ch => M2.view.read (Elt F) f2 (ix4 0 ch y x)) (Fin.ext (by show 0 + cc.val = 32 * 0 + cc.val; omega)))
/-- Chunk 0 of the second block. -/
theorem v13_read : kernelRun.sl.v13 c M3 f3 (ix3 cc y x) = M3.view.read (Elt F) f3 (ix4 0 (Cert.Corr.chan 0 cc) y x) := by
  unfold kernelRun.sl.v13
  exact (chunk_read c M3 _ 0 _ (by omega) f3 cc y x).trans
    (congrArg (fun ch => M3.view.read (Elt F) f3 (ix4 0 ch y x)) (Fin.ext (by show 0 + cc.val = 32 * 0 + cc.val; omega)))
/-- Chunk 1 of the first block: channels 32 to 63. -/
theorem v139_read : kernelRun.sl.v139 c M2 f2 (ix3 cc y x) = M2.view.read (Elt F) f2 (ix4 0 (Cert.Corr.chan 1 cc) y x) := by
  unfold kernelRun.sl.v139
  exact (chunk_read c M2 _ 32 _ (by omega) f2 cc y x).trans
    (congrArg (fun ch => M2.view.read (Elt F) f2 (ix4 0 ch y x)) (Fin.ext (by show 32 + cc.val = 32 * 1 + cc.val; omega)))
/-- Chunk 1 of the second block. -/
theorem v143_read : kernelRun.sl.v143 c M3 f3 (ix3 cc y x) = M3.view.read (Elt F) f3 (ix4 0 (Cert.Corr.chan 1 cc) y x) := by
  unfold kernelRun.sl.v143
  exact (chunk_read c M3 _ 32 _ (by omega) f3 cc y x).trans
    (congrArg (fun ch => M3.view.read (Elt F) f3 (ix4 0 ch y x)) (Fin.ext (by show 32 + cc.val = 32 * 1 + cc.val; omega)))
/-- Chunk 2 of the first block: channels 64 to 95. -/
theorem v269_read : kernelRun.sl.v269 c M2 f2 (ix3 cc y x) = M2.view.read (Elt F) f2 (ix4 0 (Cert.Corr.chan 2 cc) y x) := by
  unfold kernelRun.sl.v269
  exact (chunk_read c M2 _ 64 _ (by omega) f2 cc y x).trans
    (congrArg (fun ch => M2.view.read (Elt F) f2 (ix4 0 ch y x)) (Fin.ext (by show 64 + cc.val = 32 * 2 + cc.val; omega)))
/-- Chunk 2 of the second block. -/
theorem v273_read : kernelRun.sl.v273 c M3 f3 (ix3 cc y x) = M3.view.read (Elt F) f3 (ix4 0 (Cert.Corr.chan 2 cc) y x) := by
  unfold kernelRun.sl.v273
  exact (chunk_read c M3 _ 64 _ (by omega) f3 cc y x).trans
    (congrArg (fun ch => M3.view.read (Elt F) f3 (ix4 0 ch y x)) (Fin.ext (by show 64 + cc.val = 32 * 2 + cc.val; omega)))
/-- Chunk 3 of the first block: channels 96 to 127. -/
theorem v399_read : kernelRun.sl.v399 c M2 f2 (ix3 cc y x) = M2.view.read (Elt F) f2 (ix4 0 (Cert.Corr.chan 3 cc) y x) := by
  unfold kernelRun.sl.v399
  exact (chunk_read c M2 _ 96 _ (by omega) f2 cc y x).trans
    (congrArg (fun ch => M2.view.read (Elt F) f2 (ix4 0 ch y x)) (Fin.ext (by show 96 + cc.val = 32 * 3 + cc.val; omega)))
/-- Chunk 3 of the second block. -/
theorem v403_read : kernelRun.sl.v403 c M3 f3 (ix3 cc y x) = M3.view.read (Elt F) f3 (ix4 0 (Cert.Corr.chan 3 cc) y x) := by
  unfold kernelRun.sl.v403
  exact (chunk_read c M3 _ 96 _ (by omega) f3 cc y x).trans
    (congrArg (fun ch => M3.view.read (Elt F) f3 (ix4 0 ch y x)) (Fin.ext (by show 96 + cc.val = 32 * 3 + cc.val; omega)))

end Chunks

/-! ## The accumulator after a number of stores -/

/-- One chunk's contribution to entry \`(d, y, x)\`: the sum over the chunk's 32 channels of the first block times the
    second block \`d - 4\` columns along, zero outside the row. -/
def chunkSum (X0 X1 : Vec Ideal S1x128x24x320 .f32) (k : Fin 4) (d : Fin 9) (y : Fin 24) (x : Fin 320) : EReal :=
  ∑ c : Fin 32, X0 (ix4 0 (Cert.Corr.chan k c) y x) *
    (if h : Cert.Corr.inRow x d then X1 (ix4 0 (Cert.Corr.chan k c) y (Cert.Corr.shiftCol x d h)) else 0)

/-- The first \`m\` chunks' contributions added up from zero, in the kernel's order. -/
def accAfter (X0 X1 : Vec Ideal S1x128x24x320 .f32) (m : ℕ) (d : Fin 9) (y : Fin 24) (x : Fin 320) : EReal :=
  match m with
  | 0 => 0
  | 1 => 0 + chunkSum X0 X1 0 d y x
  | 2 => (0 + chunkSum X0 X1 0 d y x) + chunkSum X0 X1 1 d y x
  | 3 => ((0 + chunkSum X0 X1 0 d y x) + chunkSum X0 X1 1 d y x) + chunkSum X0 X1 2 d y x
  | _ => (((0 + chunkSum X0 X1 0 d y x) + chunkSum X0 X1 1 d y x) + chunkSum X0 X1 2 d y x) + chunkSum X0 X1 3 d y x

theorem accAfter_succ (X0 X1 : Vec Ideal S1x128x24x320 .f32) (k : Fin 4) (d : Fin 9) (y : Fin 24) (x : Fin 320) :
    accAfter X0 X1 (k.val + 1) d y x = accAfter X0 X1 k.val d y x + chunkSum X0 X1 k d y x := by
  fin_cases k <;> rfl

/-- The list \`L\` — the zero fill and the first \`n - 1\` slab stores — reads, at every entry, the contributions of the
    chunks stored to that entry's slab so far. -/
def ReadsAt (X0 X1 : Vec Ideal S1x128x24x320 .f32) (n : ℕ) (L : List (View.Piece (Elt Ideal) S9x24x320 .f32)) : Prop :=
  ∀ (d : Fin 9) (y : Fin 24) (x : Fin 320), View.canon L (ix3 d y x) = accAfter X0 X1 ((n + 7 - d.val) / 9) d y x

/-- One more store: chunk \`k\`'s update of slab \`d0\`, whose value at \`(0, y, x)\` is the list at \`(d0, y, x)\` plus the
    chunk's contribution. -/
theorem ReadsAt.store {X0 X1 : Vec Ideal S1x128x24x320 .f32} {n : ℕ} {L : List (View.Piece (Elt Ideal) S9x24x320 .f32)}
    (hL : ReadsAt X0 X1 n L) (k : Fin 4) (d0 : Fin 9) (hn : n = 9 * k.val + d0.val + 1)
    (h : ∀ a, (![d0.val, 0, 0] : Fin 3 → ℕ) a + S1x24x320.size a ≤ S9x24x320.size a)
    (p : (Rect.unit (s := S9x24x320) ![d0.val, 0, 0] S1x24x320.size h).shape.Idx → Elt Ideal .f32)
    (hp : ∀ (y : Fin 24) (x : Fin 320), p (ix3 (0 : Fin 1) y x) = View.canon L (ix3 d0 y x) + chunkSum X0 X1 k d0 y x) :
    ReadsAt X0 X1 (n + 1) (⟨Rect.unit (s := S9x24x320) ![d0.val, 0, 0] S1x24x320.size h, p⟩ :: L) := by
  intro d y x
  have hk := k.isLt
  have hd0 := d0.isLt
  have hd9 := d.isLt
  by_cases hd : d = d0
  · subst hd
    have e1 : (n + 7 - d.val) / 9 = k.val := by omega
    have e2 : (n + 1 + 7 - d.val) / 9 = k.val + 1 := by omega
    rw [slab_hit, hp, hL d y x, e1, e2, accAfter_succ]
  · have hne : d.val ≠ d0.val := fun e => hd (Fin.ext e)
    have e : (n + 1 + 7 - d.val) / 9 = (n + 7 - d.val) / 9 := by omega
    rw [slab_miss d d0 hd, hL d y x, e]

/-- A slab update, at chunk \`k\`'s loads and slab \`d0\`'s load after the stores \`L\`, has at \`(0, y, x)\` the value the
    list reads at \`(d0, y, x)\` plus chunk \`k\`'s contribution. -/
theorem payval {X0 X1 : Vec Ideal S1x128x24x320 .f32} (k : Fin 4) (d0 : Fin 9)
    (U : Vec Ideal S32x24x320 .f32 → Vec Ideal S32x24x320 .f32 → Vec Ideal S1x24x320 .f32 → FVec Ideal S1x24x320 .f32)
    (hU : ∀ (v9 v13 : Vec Ideal S32x24x320 .f32) (old : Vec Ideal S1x24x320 .f32) (y : Fin 24) (x : Fin 320),
      U v9 v13 old (ix3 0 y x) = old (ix3 0 y x) + ∑ c : Fin 32, v9 (ix3 c y x) *
        (if h : Cert.Corr.inRow x d0 then v13 (ix3 c y (Cert.Corr.shiftCol x d0 h)) else 0))
    (vA vB : Vec Ideal S32x24x320 .f32)
    (hA : ∀ (cc : Fin 32) (y : Fin 24) (x : Fin 320), vA (ix3 cc y x) = X0 (ix4 0 (Cert.Corr.chan k cc) y x))
    (hB : ∀ (cc : Fin 32) (y : Fin 24) (x : Fin 320), vB (ix3 cc y x) = X1 (ix4 0 (Cert.Corr.chan k cc) y x))
    (M5 : Memref sig .tc .vmem S9x24x320 .f32) (L : List (View.Piece (Elt Ideal) S9x24x320 .f32))
    (h : ∀ a, (![d0.val, 0, 0] : Fin 3 → ℕ) a + S1x24x320.size a ≤ S9x24x320.size a) (y : Fin 24) (x : Fin 320) :
    U vA vB (M5.view.readCov L (Rect.unit (s := S9x24x320) ![d0.val, 0, 0] S1x24x320.size h).toLoadRect) (ix3 0 y x)
      = View.canon L (ix3 d0 y x) + chunkSum X0 X1 k d0 y x := by
  rw [hU, slabLoad_read]
  refine congrArg (View.canon L (ix3 d0 y x) + ·) (Finset.sum_congr rfl fun cc _ => ?_)
  rw [hA]
  by_cases hr : Cert.Corr.inRow x d0
  · rw [dif_pos hr, dif_pos hr, hB]
  · rw [dif_neg hr, dif_neg hr]

/-! ## The 36 stored values are the slab updates

Each value stored to the accumulator (some of them written in two pieces) is one of the nine slab updates, at its
chunk's loads and its slab's load. -/

section Stored
open kernelRun.sl
variable {F : FTy → Type} [FloatOps F]
variable (c : Dev nD) (M2 M3 : Memref sig .tc .vmem S1x128x24x320 .f32) (M5 : Memref sig .tc .vmem S9x24x320 .f32)
  (f2 : Bf (F := F) c M2) (f3 : Bf (F := F) c M3)

theorem pay_0_0 : k0_pay4 (v9 c M2 f2) (v13 c M3 f3) (v22 M5) = slabRot 4#32 .sge 4#32 (v9 c M2 f2) (v13 c M3 f3) (v22 M5) := rfl
theorem pay_0_1 : k0_pay5 (v9 c M2 f2) (v13 c M3 f3) (v36 c M2 M3 M5 f2 f3) = slabRot 3#32 .sge 3#32 (v9 c M2 f2) (v13 c M3 f3) (v36 c M2 M3 M5 f2 f3) := rfl
theorem pay_0_2 : k0_pay6 (v9 c M2 f2) (v13 c M3 f3) (v50 c M2 M3 M5 f2 f3) = slabRot 2#32 .sge 2#32 (v9 c M2 f2) (v13 c M3 f3) (v50 c M2 M3 M5 f2 f3) := rfl
theorem pay_0_3 : k0_pay8 (r c M2 M3 f2 f3) (v64 c M2 M3 M5 f2 f3) = slabRot 1#32 .sge 1#32 (v9 c M2 f2) (v13 c M3 f3) (v64 c M2 M3 M5 f2 f3) := rfl
theorem pay_0_4 : k0_pay9 (v9 c M2 f2) (v13 c M3 f3) (v72 c M2 M3 M5 f2 f3) = slabPlain (v9 c M2 f2) (v13 c M3 f3) (v72 c M2 M3 M5 f2 f3) := rfl
theorem pay_0_5 : k0_pay10 (v9 c M2 f2) (v13 c M3 f3) (v86 c M2 M3 M5 f2 f3) = slabRot 319#32 .slt 319#32 (v9 c M2 f2) (v13 c M3 f3) (v86 c M2 M3 M5 f2 f3) := rfl
theorem pay_0_6 : k0_pay12 (v9 c M2 f2) (r_1 c M3 f3) v93 (318#32) (v100 c M2 M3 M5 f2 f3) = slabRot 318#32 .slt 318#32 (v9 c M2 f2) (v13 c M3 f3) (v100 c M2 M3 M5 f2 f3) := rfl
theorem pay_0_7 : k0_pay13 (v9 c M2 f2) (v13 c M3 f3) (v114 c M2 M3 M5 f2 f3) = slabRot 317#32 .slt 317#32 (v9 c M2 f2) (v13 c M3 f3) (v114 c M2 M3 M5 f2 f3) := rfl
theorem pay_0_8 : k0_pay15 (r_2 c M2 M3 f2 f3) (v128 c M2 M3 M5 f2 f3) = slabRot 316#32 .slt 316#32 (v9 c M2 f2) (v13 c M3 f3) (v128 c M2 M3 M5 f2 f3) := rfl

theorem pay_1_0 : k0_pay16 (v139 c M2 f2) (v143 c M3 f3) (v152 c M2 M3 M5 f2 f3) = slabRot 4#32 .sge 4#32 (v139 c M2 f2) (v143 c M3 f3) (v152 c M2 M3 M5 f2 f3) := rfl
theorem pay_1_1 : k0_pay18 (v139 c M2 f2) (r_3 c M3 f3) (v166 c M2 M3 M5 f2 f3) = slabRot 3#32 .sge 3#32 (v139 c M2 f2) (v143 c M3 f3) (v166 c M2 M3 M5 f2 f3) := rfl
theorem pay_1_2 : k0_pay19 (v139 c M2 f2) (v143 c M3 f3) (v180 c M2 M3 M5 f2 f3) = slabRot 2#32 .sge 2#32 (v139 c M2 f2) (v143 c M3 f3) (v180 c M2 M3 M5 f2 f3) := rfl
theorem pay_1_3 : k0_pay21 (r_4 c M2 M3 f2 f3) (v194 c M2 M3 M5 f2 f3) = slabRot 1#32 .sge 1#32 (v139 c M2 f2) (v143 c M3 f3) (v194 c M2 M3 M5 f2 f3) := rfl
theorem pay_1_4 : k0_pay22 (v139 c M2 f2) (v143 c M3 f3) (v202 c M2 M3 M5 f2 f3) = slabPlain (v139 c M2 f2) (v143 c M3 f3) (v202 c M2 M3 M5 f2 f3) := rfl
theorem pay_1_5 : k0_pay23 (v139 c M2 f2) (v143 c M3 f3) (v216 c M2 M3 M5 f2 f3) = slabRot 319#32 .slt 319#32 (v139 c M2 f2) (v143 c M3 f3) (v216 c M2 M3 M5 f2 f3) := rfl
theorem pay_1_6 : k0_pay26 (v139 c M2 f2) (r_5 c M3 f3) k0_pay25 (v230 c M2 M3 M5 f2 f3) = slabRot 318#32 .slt 318#32 (v139 c M2 f2) (v143 c M3 f3) (v230 c M2 M3 M5 f2 f3) := rfl
theorem pay_1_7 : k0_pay27 (v139 c M2 f2) (v143 c M3 f3) (v244 c M2 M3 M5 f2 f3) = slabRot 317#32 .slt 317#32 (v139 c M2 f2) (v143 c M3 f3) (v244 c M2 M3 M5 f2 f3) := rfl
theorem pay_1_8 : k0_pay29 (r_6 c M2 M3 f2 f3) (v258 c M2 M3 M5 f2 f3) = slabRot 316#32 .slt 316#32 (v139 c M2 f2) (v143 c M3 f3) (v258 c M2 M3 M5 f2 f3) := rfl

theorem pay_2_0 : k0_pay30 (v269 c M2 f2) (v273 c M3 f3) (v282 c M2 M3 M5 f2 f3) = slabRot 4#32 .sge 4#32 (v269 c M2 f2) (v273 c M3 f3) (v282 c M2 M3 M5 f2 f3) := rfl
theorem pay_2_1 : k0_pay32 (v269 c M2 f2) (r_7 c M3 f3) v93 (3#32) (v296 c M2 M3 M5 f2 f3) = slabRot 3#32 .sge 3#32 (v269 c M2 f2) (v273 c M3 f3) (v296 c M2 M3 M5 f2 f3) := rfl
theorem pay_2_2 : k0_pay33 (v269 c M2 f2) (v273 c M3 f3) (v310 c M2 M3 M5 f2 f3) = slabRot 2#32 .sge 2#32 (v269 c M2 f2) (v273 c M3 f3) (v310 c M2 M3 M5 f2 f3) := rfl
theorem pay_2_3 : k0_pay35 (r_8 c M2 M3 f2 f3) (v324 c M2 M3 M5 f2 f3) = slabRot 1#32 .sge 1#32 (v269 c M2 f2) (v273 c M3 f3) (v324 c M2 M3 M5 f2 f3) := rfl
theorem pay_2_4 : k0_pay36 (v269 c M2 f2) (v273 c M3 f3) (v332 c M2 M3 M5 f2 f3) = slabPlain (v269 c M2 f2) (v273 c M3 f3) (v332 c M2 M3 M5 f2 f3) := rfl
theorem pay_2_5 : k0_pay37 (v269 c M2 f2) (v273 c M3 f3) (v346 c M2 M3 M5 f2 f3) = slabRot 319#32 .slt 319#32 (v269 c M2 f2) (v273 c M3 f3) (v346 c M2 M3 M5 f2 f3) := rfl
theorem pay_2_6 : k0_pay41 (v269 c M2 f2) (r_9 c M3 f3) k0_pay39 k0_pay40 (v360 c M2 M3 M5 f2 f3) = slabRot 318#32 .slt 318#32 (v269 c M2 f2) (v273 c M3 f3) (v360 c M2 M3 M5 f2 f3) := rfl
theorem pay_2_7 : k0_pay42 (v269 c M2 f2) (v273 c M3 f3) (v374 c M2 M3 M5 f2 f3) = slabRot 317#32 .slt 317#32 (v269 c M2 f2) (v273 c M3 f3) (v374 c M2 M3 M5 f2 f3) := rfl
theorem pay_2_8 : k0_pay44 (r_10 c M2 M3 M5 f2 f3) = slabRot 316#32 .slt 316#32 (v269 c M2 f2) (v273 c M3 f3) (v388 c M2 M3 M5 f2 f3) := rfl

theorem pay_3_0 : k0_pay45 (v399 c M2 f2) (v403 c M3 f3) (v412 c M2 M3 M5 f2 f3) = slabRot 4#32 .sge 4#32 (v399 c M2 f2) (v403 c M3 f3) (v412 c M2 M3 M5 f2 f3) := rfl
theorem pay_3_1 : k0_pay48 (v399 c M2 f2) (r_11 c M3 f3) k0_pay47 (v426 c M2 M3 M5 f2 f3) = slabRot 3#32 .sge 3#32 (v399 c M2 f2) (v403 c M3 f3) (v426 c M2 M3 M5 f2 f3) := rfl
theorem pay_3_2 : k0_pay49 (v399 c M2 f2) (v403 c M3 f3) (v440 c M2 M3 M5 f2 f3) = slabRot 2#32 .sge 2#32 (v399 c M2 f2) (v403 c M3 f3) (v440 c M2 M3 M5 f2 f3) := rfl
theorem pay_3_3 : k0_pay51 (r_12 c M2 M3 f2 f3) (v454 c M2 M3 M5 f2 f3) = slabRot 1#32 .sge 1#32 (v399 c M2 f2) (v403 c M3 f3) (v454 c M2 M3 M5 f2 f3) := rfl
theorem pay_3_4 : k0_pay52 (v399 c M2 f2) (v403 c M3 f3) (v462 c M2 M3 M5 f2 f3) = slabPlain (v399 c M2 f2) (v403 c M3 f3) (v462 c M2 M3 M5 f2 f3) := rfl
theorem pay_3_5 : k0_pay53 (v399 c M2 f2) (v403 c M3 f3) (v476 c M2 M3 M5 f2 f3) = slabRot 319#32 .slt 319#32 (v399 c M2 f2) (v403 c M3 f3) (v476 c M2 M3 M5 f2 f3) := rfl
theorem pay_3_6 : k0_pay55 (r_13 c M2 M3 f2 f3) (v490 c M2 M3 M5 f2 f3) = slabRot 318#32 .slt 318#32 (v399 c M2 f2) (v403 c M3 f3) (v490 c M2 M3 M5 f2 f3) := rfl
theorem pay_3_7 : k0_pay56 (v399 c M2 f2) (v403 c M3 f3) (v504 c M2 M3 M5 f2 f3) = slabRot 317#32 .slt 317#32 (v399 c M2 f2) (v403 c M3 f3) (v504 c M2 M3 M5 f2 f3) := rfl
theorem pay_3_8 : k0_pay1 (r_14 c M2 M3 M5 f2 f3) = slabRot 316#32 .slt 316#32 (v399 c M2 f2) (v403 c M3 f3) (v518 c M2 M3 M5 f2 f3) := rfl

end Stored

/-! ## Along the 37 stores -/

section Along
open kernelRun.sl
variable (c : Dev nD) (M2 M3 : Memref sig .tc .vmem S1x128x24x320 .f32) (M5 : Memref sig .tc .vmem S9x24x320 .f32)
  (f2 : Bf (F := Ideal) c M2) (f3 : Bf (F := Ideal) c M3)

/-- \`ReadsAt\` at what the two input buffers read. -/
abbrev Reads (n : ℕ) (L : List (View.Piece (Elt Ideal) S9x24x320 .f32)) : Prop :=
  ReadsAt (M2.view.read (Elt Ideal) f2) (M3.view.read (Elt Ideal) f3) n L

theorem reads_1 : Reads c M2 M3 f2 f3 1 kernelRun.sl.H5_1 := by
  intro d y x
  have hd := d.isLt
  have e : (1 + 7 - d.val) / 9 = 0 := by omega
  rw [e, fill_read]
  rfl

theorem reads_2 : Reads c M2 M3 f2 f3 2 (H5_2 c M2 M3 M5 f2 f3) :=
  ReadsAt.store (reads_1 c M2 M3 f2 f3) 0 ⟨0, by omega⟩ rfl _ _ fun y x => by
    rw [pay_0_0]; exact payval 0 ⟨0, by omega⟩ (slabRot 4#32 .sge 4#32) slab_apply_0 _ _ (v9_read c M2 f2) (v13_read c M3 f3) M5 _ _ y x
theorem reads_3 : Reads c M2 M3 f2 f3 3 (H5_3 c M2 M3 M5 f2 f3) :=
  ReadsAt.store (reads_2 c M2 M3 M5 f2 f3) 0 ⟨1, by omega⟩ rfl _ _ fun y x => by
    rw [pay_0_1]; exact payval 0 ⟨1, by omega⟩ (slabRot 3#32 .sge 3#32) slab_apply_1 _ _ (v9_read c M2 f2) (v13_read c M3 f3) M5 _ _ y x
theorem reads_4 : Reads c M2 M3 f2 f3 4 (H5_4 c M2 M3 M5 f2 f3) :=
  ReadsAt.store (reads_3 c M2 M3 M5 f2 f3) 0 ⟨2, by omega⟩ rfl _ _ fun y x => by
    rw [pay_0_2]; exact payval 0 ⟨2, by omega⟩ (slabRot 2#32 .sge 2#32) slab_apply_2 _ _ (v9_read c M2 f2) (v13_read c M3 f3) M5 _ _ y x
theorem reads_5 : Reads c M2 M3 f2 f3 5 (H5_5 c M2 M3 M5 f2 f3) :=
  ReadsAt.store (reads_4 c M2 M3 M5 f2 f3) 0 ⟨3, by omega⟩ rfl _ _ fun y x => by
    rw [pay_0_3]; exact payval 0 ⟨3, by omega⟩ (slabRot 1#32 .sge 1#32) slab_apply_3 _ _ (v9_read c M2 f2) (v13_read c M3 f3) M5 _ _ y x
theorem reads_6 : Reads c M2 M3 f2 f3 6 (H5_6 c M2 M3 M5 f2 f3) :=
  ReadsAt.store (reads_5 c M2 M3 M5 f2 f3) 0 ⟨4, by omega⟩ rfl _ _ fun y x => by
    rw [pay_0_4]; exact payval 0 ⟨4, by omega⟩ slabPlain slab_apply_4 _ _ (v9_read c M2 f2) (v13_read c M3 f3) M5 _ _ y x
theorem reads_7 : Reads c M2 M3 f2 f3 7 (H5_7 c M2 M3 M5 f2 f3) :=
  ReadsAt.store (reads_6 c M2 M3 M5 f2 f3) 0 ⟨5, by omega⟩ rfl _ _ fun y x => by
    rw [pay_0_5]; exact payval 0 ⟨5, by omega⟩ (slabRot 319#32 .slt 319#32) slab_apply_5 _ _ (v9_read c M2 f2) (v13_read c M3 f3) M5 _ _ y x
theorem reads_8 : Reads c M2 M3 f2 f3 8 (H5_8 c M2 M3 M5 f2 f3) :=
  ReadsAt.store (reads_7 c M2 M3 M5 f2 f3) 0 ⟨6, by omega⟩ rfl _ _ fun y x => by
    rw [pay_0_6]; exact payval 0 ⟨6, by omega⟩ (slabRot 318#32 .slt 318#32) slab_apply_6 _ _ (v9_read c M2 f2) (v13_read c M3 f3) M5 _ _ y x
theorem reads_9 : Reads c M2 M3 f2 f3 9 (H5_9 c M2 M3 M5 f2 f3) :=
  ReadsAt.store (reads_8 c M2 M3 M5 f2 f3) 0 ⟨7, by omega⟩ rfl _ _ fun y x => by
    rw [pay_0_7]; exact payval 0 ⟨7, by omega⟩ (slabRot 317#32 .slt 317#32) slab_apply_7 _ _ (v9_read c M2 f2) (v13_read c M3 f3) M5 _ _ y x
theorem reads_10 : Reads c M2 M3 f2 f3 10 (H5_10 c M2 M3 M5 f2 f3) :=
  ReadsAt.store (reads_9 c M2 M3 M5 f2 f3) 0 ⟨8, by omega⟩ rfl _ _ fun y x => by
    rw [pay_0_8]; exact payval 0 ⟨8, by omega⟩ (slabRot 316#32 .slt 316#32) slab_apply_8 _ _ (v9_read c M2 f2) (v13_read c M3 f3) M5 _ _ y x

theorem reads_11 : Reads c M2 M3 f2 f3 11 (H5_11 c M2 M3 M5 f2 f3) :=
  ReadsAt.store (reads_10 c M2 M3 M5 f2 f3) 1 ⟨0, by omega⟩ rfl _ _ fun y x => by
    rw [pay_1_0]; exact payval 1 ⟨0, by omega⟩ (slabRot 4#32 .sge 4#32) slab_apply_0 _ _ (v139_read c M2 f2) (v143_read c M3 f3) M5 _ _ y x
theorem reads_12 : Reads c M2 M3 f2 f3 12 (H5_12 c M2 M3 M5 f2 f3) :=
  ReadsAt.store (reads_11 c M2 M3 M5 f2 f3) 1 ⟨1, by omega⟩ rfl _ _ fun y x => by
    rw [pay_1_1]; exact payval 1 ⟨1, by omega⟩ (slabRot 3#32 .sge 3#32) slab_apply_1 _ _ (v139_read c M2 f2) (v143_read c M3 f3) M5 _ _ y x
theorem reads_13 : Reads c M2 M3 f2 f3 13 (H5_13 c M2 M3 M5 f2 f3) :=
  ReadsAt.store (reads_12 c M2 M3 M5 f2 f3) 1 ⟨2, by omega⟩ rfl _ _ fun y x => by
    rw [pay_1_2]; exact payval 1 ⟨2, by omega⟩ (slabRot 2#32 .sge 2#32) slab_apply_2 _ _ (v139_read c M2 f2) (v143_read c M3 f3) M5 _ _ y x
theorem reads_14 : Reads c M2 M3 f2 f3 14 (H5_14 c M2 M3 M5 f2 f3) :=
  ReadsAt.store (reads_13 c M2 M3 M5 f2 f3) 1 ⟨3, by omega⟩ rfl _ _ fun y x => by
    rw [pay_1_3]; exact payval 1 ⟨3, by omega⟩ (slabRot 1#32 .sge 1#32) slab_apply_3 _ _ (v139_read c M2 f2) (v143_read c M3 f3) M5 _ _ y x
theorem reads_15 : Reads c M2 M3 f2 f3 15 (H5_15 c M2 M3 M5 f2 f3) :=
  ReadsAt.store (reads_14 c M2 M3 M5 f2 f3) 1 ⟨4, by omega⟩ rfl _ _ fun y x => by
    rw [pay_1_4]; exact payval 1 ⟨4, by omega⟩ slabPlain slab_apply_4 _ _ (v139_read c M2 f2) (v143_read c M3 f3) M5 _ _ y x
theorem reads_16 : Reads c M2 M3 f2 f3 16 (H5_16 c M2 M3 M5 f2 f3) :=
  ReadsAt.store (reads_15 c M2 M3 M5 f2 f3) 1 ⟨5, by omega⟩ rfl _ _ fun y x => by
    rw [pay_1_5]; exact payval 1 ⟨5, by omega⟩ (slabRot 319#32 .slt 319#32) slab_apply_5 _ _ (v139_read c M2 f2) (v143_read c M3 f3) M5 _ _ y x
theorem reads_17 : Reads c M2 M3 f2 f3 17 (H5_17 c M2 M3 M5 f2 f3) :=
  ReadsAt.store (reads_16 c M2 M3 M5 f2 f3) 1 ⟨6, by omega⟩ rfl _ _ fun y x => by
    rw [pay_1_6]; exact payval 1 ⟨6, by omega⟩ (slabRot 318#32 .slt 318#32) slab_apply_6 _ _ (v139_read c M2 f2) (v143_read c M3 f3) M5 _ _ y x
theorem reads_18 : Reads c M2 M3 f2 f3 18 (H5_18 c M2 M3 M5 f2 f3) :=
  ReadsAt.store (reads_17 c M2 M3 M5 f2 f3) 1 ⟨7, by omega⟩ rfl _ _ fun y x => by
    rw [pay_1_7]; exact payval 1 ⟨7, by omega⟩ (slabRot 317#32 .slt 317#32) slab_apply_7 _ _ (v139_read c M2 f2) (v143_read c M3 f3) M5 _ _ y x
theorem reads_19 : Reads c M2 M3 f2 f3 19 (H5_19 c M2 M3 M5 f2 f3) :=
  ReadsAt.store (reads_18 c M2 M3 M5 f2 f3) 1 ⟨8, by omega⟩ rfl _ _ fun y x => by
    rw [pay_1_8]; exact payval 1 ⟨8, by omega⟩ (slabRot 316#32 .slt 316#32) slab_apply_8 _ _ (v139_read c M2 f2) (v143_read c M3 f3) M5 _ _ y x

theorem reads_20 : Reads c M2 M3 f2 f3 20 (H5_20 c M2 M3 M5 f2 f3) :=
  ReadsAt.store (reads_19 c M2 M3 M5 f2 f3) 2 ⟨0, by omega⟩ rfl _ _ fun y x => by
    rw [pay_2_0]; exact payval 2 ⟨0, by omega⟩ (slabRot 4#32 .sge 4#32) slab_apply_0 _ _ (v269_read c M2 f2) (v273_read c M3 f3) M5 _ _ y x
theorem reads_21 : Reads c M2 M3 f2 f3 21 (H5_21 c M2 M3 M5 f2 f3) :=
  ReadsAt.store (reads_20 c M2 M3 M5 f2 f3) 2 ⟨1, by omega⟩ rfl _ _ fun y x => by
    rw [pay_2_1]; exact payval 2 ⟨1, by omega⟩ (slabRot 3#32 .sge 3#32) slab_apply_1 _ _ (v269_read c M2 f2) (v273_read c M3 f3) M5 _ _ y x
theorem reads_22 : Reads c M2 M3 f2 f3 22 (H5_22 c M2 M3 M5 f2 f3) :=
  ReadsAt.store (reads_21 c M2 M3 M5 f2 f3) 2 ⟨2, by omega⟩ rfl _ _ fun y x => by
    rw [pay_2_2]; exact payval 2 ⟨2, by omega⟩ (slabRot 2#32 .sge 2#32) slab_apply_2 _ _ (v269_read c M2 f2) (v273_read c M3 f3) M5 _ _ y x
theorem reads_23 : Reads c M2 M3 f2 f3 23 (H5_23 c M2 M3 M5 f2 f3) :=
  ReadsAt.store (reads_22 c M2 M3 M5 f2 f3) 2 ⟨3, by omega⟩ rfl _ _ fun y x => by
    rw [pay_2_3]; exact payval 2 ⟨3, by omega⟩ (slabRot 1#32 .sge 1#32) slab_apply_3 _ _ (v269_read c M2 f2) (v273_read c M3 f3) M5 _ _ y x
theorem reads_24 : Reads c M2 M3 f2 f3 24 (H5_24 c M2 M3 M5 f2 f3) :=
  ReadsAt.store (reads_23 c M2 M3 M5 f2 f3) 2 ⟨4, by omega⟩ rfl _ _ fun y x => by
    rw [pay_2_4]; exact payval 2 ⟨4, by omega⟩ slabPlain slab_apply_4 _ _ (v269_read c M2 f2) (v273_read c M3 f3) M5 _ _ y x
theorem reads_25 : Reads c M2 M3 f2 f3 25 (H5_25 c M2 M3 M5 f2 f3) :=
  ReadsAt.store (reads_24 c M2 M3 M5 f2 f3) 2 ⟨5, by omega⟩ rfl _ _ fun y x => by
    rw [pay_2_5]; exact payval 2 ⟨5, by omega⟩ (slabRot 319#32 .slt 319#32) slab_apply_5 _ _ (v269_read c M2 f2) (v273_read c M3 f3) M5 _ _ y x
theorem reads_26 : Reads c M2 M3 f2 f3 26 (H5_26 c M2 M3 M5 f2 f3) :=
  ReadsAt.store (reads_25 c M2 M3 M5 f2 f3) 2 ⟨6, by omega⟩ rfl _ _ fun y x => by
    rw [pay_2_6]; exact payval 2 ⟨6, by omega⟩ (slabRot 318#32 .slt 318#32) slab_apply_6 _ _ (v269_read c M2 f2) (v273_read c M3 f3) M5 _ _ y x
theorem reads_27 : Reads c M2 M3 f2 f3 27 (H5_27 c M2 M3 M5 f2 f3) :=
  ReadsAt.store (reads_26 c M2 M3 M5 f2 f3) 2 ⟨7, by omega⟩ rfl _ _ fun y x => by
    rw [pay_2_7]; exact payval 2 ⟨7, by omega⟩ (slabRot 317#32 .slt 317#32) slab_apply_7 _ _ (v269_read c M2 f2) (v273_read c M3 f3) M5 _ _ y x
theorem reads_28 : Reads c M2 M3 f2 f3 28 (H5_28 c M2 M3 M5 f2 f3) :=
  ReadsAt.store (reads_27 c M2 M3 M5 f2 f3) 2 ⟨8, by omega⟩ rfl _ _ fun y x => by
    rw [pay_2_8]; exact payval 2 ⟨8, by omega⟩ (slabRot 316#32 .slt 316#32) slab_apply_8 _ _ (v269_read c M2 f2) (v273_read c M3 f3) M5 _ _ y x

theorem reads_29 : Reads c M2 M3 f2 f3 29 (H5_29 c M2 M3 M5 f2 f3) :=
  ReadsAt.store (reads_28 c M2 M3 M5 f2 f3) 3 ⟨0, by omega⟩ rfl _ _ fun y x => by
    rw [pay_3_0]; exact payval 3 ⟨0, by omega⟩ (slabRot 4#32 .sge 4#32) slab_apply_0 _ _ (v399_read c M2 f2) (v403_read c M3 f3) M5 _ _ y x
theorem reads_30 : Reads c M2 M3 f2 f3 30 (H5_30 c M2 M3 M5 f2 f3) :=
  ReadsAt.store (reads_29 c M2 M3 M5 f2 f3) 3 ⟨1, by omega⟩ rfl _ _ fun y x => by
    rw [pay_3_1]; exact payval 3 ⟨1, by omega⟩ (slabRot 3#32 .sge 3#32) slab_apply_1 _ _ (v399_read c M2 f2) (v403_read c M3 f3) M5 _ _ y x
theorem reads_31 : Reads c M2 M3 f2 f3 31 (H5_31 c M2 M3 M5 f2 f3) :=
  ReadsAt.store (reads_30 c M2 M3 M5 f2 f3) 3 ⟨2, by omega⟩ rfl _ _ fun y x => by
    rw [pay_3_2]; exact payval 3 ⟨2, by omega⟩ (slabRot 2#32 .sge 2#32) slab_apply_2 _ _ (v399_read c M2 f2) (v403_read c M3 f3) M5 _ _ y x
theorem reads_32 : Reads c M2 M3 f2 f3 32 (H5_32 c M2 M3 M5 f2 f3) :=
  ReadsAt.store (reads_31 c M2 M3 M5 f2 f3) 3 ⟨3, by omega⟩ rfl _ _ fun y x => by
    rw [pay_3_3]; exact payval 3 ⟨3, by omega⟩ (slabRot 1#32 .sge 1#32) slab_apply_3 _ _ (v399_read c M2 f2) (v403_read c M3 f3) M5 _ _ y x
theorem reads_33 : Reads c M2 M3 f2 f3 33 (H5_33 c M2 M3 M5 f2 f3) :=
  ReadsAt.store (reads_32 c M2 M3 M5 f2 f3) 3 ⟨4, by omega⟩ rfl _ _ fun y x => by
    rw [pay_3_4]; exact payval 3 ⟨4, by omega⟩ slabPlain slab_apply_4 _ _ (v399_read c M2 f2) (v403_read c M3 f3) M5 _ _ y x
theorem reads_34 : Reads c M2 M3 f2 f3 34 (H5_34 c M2 M3 M5 f2 f3) :=
  ReadsAt.store (reads_33 c M2 M3 M5 f2 f3) 3 ⟨5, by omega⟩ rfl _ _ fun y x => by
    rw [pay_3_5]; exact payval 3 ⟨5, by omega⟩ (slabRot 319#32 .slt 319#32) slab_apply_5 _ _ (v399_read c M2 f2) (v403_read c M3 f3) M5 _ _ y x
theorem reads_35 : Reads c M2 M3 f2 f3 35 (H5_35 c M2 M3 M5 f2 f3) :=
  ReadsAt.store (reads_34 c M2 M3 M5 f2 f3) 3 ⟨6, by omega⟩ rfl _ _ fun y x => by
    rw [pay_3_6]; exact payval 3 ⟨6, by omega⟩ (slabRot 318#32 .slt 318#32) slab_apply_6 _ _ (v399_read c M2 f2) (v403_read c M3 f3) M5 _ _ y x
theorem reads_36 : Reads c M2 M3 f2 f3 36 (H5_36 c M2 M3 M5 f2 f3) :=
  ReadsAt.store (reads_35 c M2 M3 M5 f2 f3) 3 ⟨7, by omega⟩ rfl _ _ fun y x => by
    rw [pay_3_7]; exact payval 3 ⟨7, by omega⟩ (slabRot 317#32 .slt 317#32) slab_apply_7 _ _ (v399_read c M2 f2) (v403_read c M3 f3) M5 _ _ y x
theorem reads_37 : Reads c M2 M3 f2 f3 37 (H5_37 c M2 M3 M5 f2 f3) :=
  ReadsAt.store (reads_36 c M2 M3 M5 f2 f3) 3 ⟨8, by omega⟩ rfl _ _ fun y x => by
    rw [pay_3_8]; exact payval 3 ⟨8, by omega⟩ (slabRot 316#32 .slt 316#32) slab_apply_8 _ _ (v399_read c M2 f2) (v403_read c M3 f3) M5 _ _ y x

/-- The accumulator after all 37 stores: at every entry the four chunks' contributions, added from zero in order. -/
theorem acc_read (d : Fin 9) (y : Fin 24) (x : Fin 320) :
    View.canon (kernelRun.sl.H5_37 (F := Ideal) c M2 M3 M5 f2 f3) (ix3 d y x)
      = (((0 + chunkSum (M2.view.read (Elt Ideal) f2) (M3.view.read (Elt Ideal) f3) 0 d y x)
            + chunkSum (M2.view.read (Elt Ideal) f2) (M3.view.read (Elt Ideal) f3) 1 d y x)
          + chunkSum (M2.view.read (Elt Ideal) f2) (M3.view.read (Elt Ideal) f3) 2 d y x)
        + chunkSum (M2.view.read (Elt Ideal) f2) (M3.view.read (Elt Ideal) f3) 3 d y x := by
  have hd := d.isLt
  have e : (37 + 7 - d.val) / 9 = 4 := by omega
  rw [reads_37 c M2 M3 M5 f2 f3 d y x, e]
  rfl

end Along

end Cert.KernelIdeal.KAcc

end
-- ==== Proof.KOut.lean ====
/-
  What the output block reads after the body, at an index.

  The body's one store into the output block is the accumulator read back whole and scaled by the word 2⁻⁷ = 1/128.
  The accumulator's slab `d` at `(y, x)` is zero plus the four chunks' channel sums (Proof/KAcc.lean); the four sums of 32
  channels, added in the kernel's order, are the sum over all 128 channels (addition of extended reals is commutative and
  associative). So the output block at `(0, d, y, x)` is the channel sum of `x0[ch, y, x] · x1[ch, y, x + d - 4]` (zero outside the
  row) times 1/128.
-/
import proofs.«106713_j74363063763057_2_alg».proof.Proof.KWit
import proofs.«106713_j74363063763057_2_alg».proof.Proof.Spec
import proofs.«106713_j74363063763057_2_alg».proof.Proof.KAcc
import Idealize.ShloMosaic.Lib.Pipeline.Value
import Idealize.ShloMosaic.Lib.Pipeline.FrameBody
import Idealize.ShloMosaic.Lib.ValueIdx
import Idealize.ShloMosaic.PureOps.Ideal.Laws

set_option maxRecDepth 16384

noncomputable section

namespace Cert.KernelIdeal.KOut

open Cert.KernelIdeal Cert.KernelIdeal.Gen Cert.KernelIdeal.KBody
open Idealize.ShloMosaic Idealize.ShloMosaic.TcCoe Idealize.ShloMosaic.ValueIdx
open Idealize.SL Idealize.SL.Sem
open Cert.KernelIdeal.KAcc

/-- The scale word denotes the real 1/128 (it is the exact dyadic 2⁻⁷). -/
theorem ofBits_inv128 : Ideal.ofBits .f32 0x3C000000#32 = ((1 / 128 : ℝ) : EReal) := by
  simp [Ideal.ofBits, Ideal.ieee, -EReal.coe_mul]; norm_num

/-- One output block's entry as a function of the two input blocks: the channel sum of `x0[ch, y, x] · x1[ch, y, x + d - 4]`
    (zero outside the row) times 1/128. -/
def blkCorr (x0 x1 : Vec Ideal S1x128x24x320 .f32) (d : Fin 9) (y : Fin 24) (x : Fin 320) : EReal :=
  (∑ ch : Fin 128, x0 (ix4 0 ch y x) * (if h : Cert.Corr.inRow x d then x1 (ix4 0 ch y (Cert.Corr.shiftCol x d h)) else 0)) * ((1 / 128 : ℝ) : EReal)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The four chunk sums, added in the kernel's order onto zero, are the sum over all 128 channels. -/
theorem chunks_total (x0 x1 : Vec Ideal S1x128x24x320 .f32) (d : Fin 9) (y : Fin 24) (x : Fin 320) :
    (((0 + chunkSum x0 x1 0 d y x) + chunkSum x0 x1 1 d y x) + chunkSum x0 x1 2 d y x) + chunkSum x0 x1 3 d y x
      = ∑ ch : Fin 128, x0 (ix4 0 ch y x) * (if h : Cert.Corr.inRow x d then x1 (ix4 0 ch y (Cert.Corr.shiftCol x d h)) else 0) := by
  rw [Cert.Corr.acc_chunks (fun k => chunkSum x0 x1 k d y x)]
  unfold chunkSum
  exact (Cert.Corr.sum_chunks (fun ch => x0 (ix4 0 ch y x) * (if h : Cert.Corr.inRow x d then x1 (ix4 0 ch y (Cert.Corr.shiftCol x d h)) else 0))).symm

/-- What the output buffer reads after the body, at `(0, d, y, x)`: the accumulator's slab `d` at `(y, x)` — zero plus the four
    chunks' channel sums — times the scale word. -/
theorem outAt_apply (c : Dev nD) (i : grid0.Coords)
    (M2 : Memref sig .tc .vmem S1x128x24x320 .f32) (h2 : M2.IsWhole) (M3 : Memref sig .tc .vmem S1x128x24x320 .f32) (h3 : M3.IsWhole)
    (M4 : Memref sig .tc .vmem S1x9x24x320 .f32) (h4 : M4.IsWhole) (M5 : Memref sig .tc .vmem S9x24x320 .f32) (h5 : M5.IsWhole)
    (x0 x1 : Vec Ideal S1x128x24x320 .f32) (d : Fin 9) (y : Fin 24) (x : Fin 320) :
    outAt (F := Ideal) c i M2 h2 M3 h3 M4 h4 M5 h5 x0 x1 (ix4 0 d y x) = blkCorr x0 x1 d y x := by
  unfold outAt
  rw [kernelRun_val]
  rw [View.read_writes_junk_apply_eq_canon]
  unfold kernelRun.sl.H4_1
  rw [View.canon_unit_zero hz4]
  show shapeCast S1x9x24x320 (mulf (kernelRun.sl.v524 c M2 M3 M5 (h2.unread x0) (h3.unread x1)) (broadcast S9x24x320 (Scalar.ofBits .f32 0x3C000000#32)))
      shapeCasts_S9x24x320_S1x9x24x320 (ix4 0 d y x) = _
  rw [shapeCast_addUnit_apply]
  rw [show (fun a : Fin 3 => (ix4 (0 : Fin 1) d y x) a.succ) = ix3 d y x from funext fun a => by
    match a with | ⟨0, _⟩ => rfl | ⟨1, _⟩ => rfl | ⟨2, _⟩ => rfl]
  rw [mulf_apply, broadcast_apply]
  unfold kernelRun.sl.v524
  rw [View.readCov_eq_canon']
  have eidx : (Rect.unit (s := S9x24x320) ![0, 0, 0] S9x24x320.size inb_S9x24x320_S9x24x320_0_0_0).toLoadRect.idx (ix3 d y x) = ix3 d y x := by
    funext a; apply Fin.ext; rw [LoadRect.idx_apply]
    match a with
    | ⟨0, _⟩ => show 0 + 1 * d.val = d.val; omega
    | ⟨1, _⟩ => show 0 + 1 * y.val = y.val; omega
    | ⟨2, _⟩ => show 0 + 1 * x.val = x.val; omega
  show View.canon (kernelRun.sl.H5_37 c M2 M3 M5 (h2.unread x0) (h3.unread x1)) ((Rect.unit (s := S9x24x320) ![0, 0, 0] S9x24x320.size inb_S9x24x320_S9x24x320_0_0_0).toLoadRect.idx (ix3 d y x)) * _ = _
  rw [eidx, acc_read, h2.read_unread, h3.read_unread, chunks_total]
  unfold blkCorr
  show _ * Ideal.ofBits .f32 0x3C000000#32 = _
  rw [ofBits_inv128]

end Cert.KernelIdeal.KOut

end
-- ==== Proof.KValue.lean ====
/-
  From blocks to the array, and the idealized kernel's run with its result named.

  Grid point `t = (b, r)` (batch entry `b`, row tile `r`) holds block `(b, 0, r, 0)` of each input array (all 128 channels,
  rows `24 r … 24 r + 23`, all columns) and writes back block `(b, 0, r, 0)` of the output (all 9 displacements, the same
  rows, all columns). What it writes back is, index by index, the correlation `Cert.Corr.corr` of the two ARGUMENT ARRAYS
  at the block's place: an output entry depends only on entries of the same batch entry and row, which the point's input
  blocks hold. The 32 blocks tile the output array, so the array ends holding `corr` of the arguments.
-/
import proofs.«106713_j74363063763057_2_alg».proof.Proof.KFrame
import proofs.«106713_j74363063763057_2_alg».proof.Proof.KOut
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.KBody Cert.KernelIdeal.KFrame
open Idealize.ShloMosaic Idealize.ShloMosaic.TcCoe Idealize.ShloMosaic.ValueIdx
open Idealize.SL Idealize.SL.Sem
open Idealize.ShloMosaic.Pipeline (Dat Cfg Window)
open Cert.KernelIdeal.KOut

variable (m : (ℓ : Loc nD τ sig) → Buf (Elt Ideal) ℓ) (ρ : Dev nD → PrngReg)

/-- The printed index maps, decided over the grid: both input windows sit at the output window's batch entry and row tile,
    at channel block 0 and column block 0; the output sits at displacement block 0 and column block 0. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) ≤ 7 ∧ win0_2.index t (2 : Fin 4) ≤ 3 :=
  (by decide +kernel : ∀ t : Fin grid0.N, _)

/-- Every (batch entry, row tile) is some point's. -/
theorem idx_onto : ∀ (q0 : Fin 8) (q2 : Fin 4), ∃ t : Fin cfg0.N, win0_2.index t = ![q0.val, 0, q2.val, 0] :=
  (by decide +kernel : ∀ (q0 : Fin 8) (q2 : Fin 4), ∃ t : Fin grid0.N, win0_2.index t = ![q0.val, 0, q2.val, 0])

/-- What point `t` writes back is block `t` of the correlation of the argument arrays as the region finds them. -/
theorem flushed_eq (c : Dev nD) (t : Fin cfg0.N) :
    (dats m 0 c).flushed 2 t = ((cfg0.win 2).blk t).view.read (Elt Ideal) (Cert.Corr.corr (V m c main_arg0) (V m c main_arg1)) := by
  show (cfg0.win 2).cut (grid0.coords t) ((dats m 0 c).after 2 t) = _
  rw [after0_2]
  obtain ⟨e00, e01, e02, e03, e10, e11, e12, e13, e21, e23, -, -⟩ := idx_facts t
  funext j
  obtain ⟨b0, d, y, x, rfl⟩ : ∃ (b0 : Fin 1) (d : Fin 9) (y : Fin 24) (x : Fin 320), j = ix4 b0 d y x := ⟨j 0, j 1, j 2, j 3, eq_ix4 j⟩
  obtain rfl : b0 = 0 := Subsingleton.elim _ _
  show outBlk c t (iblk m c 0 t) (iblk m c 1 t) (ix4 0 d y x)
    = Cert.Corr.corr (V m c main_arg0) (V m c main_arg1) (((cfg0.win 2).blk t).view.emb (ix4 0 d y x))
  refine (outAt_apply c (grid0.coords t) _ _ _ _ _ _ _ _ (iblk m c 0 t) (iblk m c 1 t) d y x).trans ?_
  generalize hI : ((cfg0.win 2).blk t).view.emb (ix4 0 d y x) = I
  have hI1 : I 1 = d := by
    subst hI; apply Fin.ext; show win0_2.index t (1 : Fin 4) * 9 + 1 * d.val = d.val; omega
  have hI3 : I 3 = x := by
    subst hI; apply Fin.ext; show win0_2.index t (3 : Fin 4) * 320 + 1 * x.val = x.val; omega
  have hI0 : (I 0).val = win0_2.index t (0 : Fin 4) := by
    subst hI; show win0_2.index t (0 : Fin 4) * 1 + 1 * 0 = _; omega
  have hI2 : (I 2).val = win0_2.index t (2 : Fin 4) * 24 + y.val := by
    subst hI; show win0_2.index t (2 : Fin 4) * 24 + 1 * y.val = _; omega
  have h0 : ∀ ch : Fin 128, iblk m c 0 t (ix4 0 ch y x) = V m c main_arg0 (ix4 (I 0) ch (I 2) x) := by
    intro ch
    show V m c main_arg0 (((cfg0.win 0).blk t).view.emb (ix4 0 ch y x)) = _
    congr 1; funext a; apply Fin.ext
    match a with
    | ⟨0, _⟩ => show win0_0.index t (0 : Fin 4) * 1 + 1 * 0 = (I 0).val; omega
    | ⟨1, _⟩ => show win0_0.index t (1 : Fin 4) * 128 + 1 * ch.val = ch.val; omega
    | ⟨2, _⟩ => show win0_0.index t (2 : Fin 4) * 24 + 1 * y.val = (I 2).val; omega
    | ⟨3, _⟩ => show win0_0.index t (3 : Fin 4) * 320 + 1 * x.val = x.val; omega
  have h1 : ∀ (ch : Fin 128) (x' : Fin 320), iblk m c 1 t (ix4 0 ch y x') = V m c main_arg1 (ix4 (I 0) ch (I 2) x') := by
    intro ch x'
    show V m c main_arg1 (((cfg0.win 1).blk t).view.emb (ix4 0 ch y x')) = _
    congr 1; funext a; apply Fin.ext
    match a with
    | ⟨0, _⟩ => show win0_1.index t (0 : Fin 4) * 1 + 1 * 0 = (I 0).val; omega
    | ⟨1, _⟩ => show win0_1.index t (1 : Fin 4) * 128 + 1 * ch.val = ch.val; omega
    | ⟨2, _⟩ => show win0_1.index t (2 : Fin 4) * 24 + 1 * y.val = (I 2).val; omega
    | ⟨3, _⟩ => show win0_1.index t (3 : Fin 4) * 320 + 1 * x'.val = x'.val; omega
  show blkCorr (iblk m c 0 t) (iblk m c 1 t) d y x = Cert.Corr.corrAt (V m c main_arg0) (V m c main_arg1) (I 0) (I 1) (I 2) (I 3)
  rw [hI1, hI3]
  unfold blkCorr Cert.Corr.corrAt Cert.Corr.shifted
  simp only [h0, h1]

/-- An index of the output array is in point `t`'s block iff each coordinate is in the block's range on its axis. -/
theorem mem_blk (t : Fin cfg0.N) (i : S8x9x96x320.Idx) :
    i ∈ ((cfg0.win 2).blk t).view.set ↔ ∀ a : Fin 4, win0_2.index t a * S1x9x24x320.size a ≤ (i a).val ∧ (i a).val < win0_2.index t a * S1x9x24x320.size a + S1x9x24x320.size a := by
  show i ∈ ((View.whole main_v0).slice (win0_2.rect t)).set ↔ _
  rw [View.set_slice_whole, Rect.mem_set_unit]
  exact Iff.rfl

/-- Every index of the output array is in the block of the point at its batch entry and row tile. -/
theorem cover (i : S8x9x96x320.Idx) : ∃ t : Fin cfg0.N, (cfg0.win 2).flush t = true ∧ i ∈ ((cfg0.win 2).blk t).view.set := by
  have hi0 : (i 0).val < 8 := (i 0).isLt
  have hi1 : (i 1).val < 9 := (i 1).isLt
  have hi2 : (i 2).val < 96 := (i 2).isLt
  have hi3 : (i 3).val < 320 := (i 3).isLt
  obtain ⟨t, ht⟩ := idx_onto ⟨(i 0).val, hi0⟩ ⟨(i 2).val / 24, by omega⟩
  have q0 : win0_2.index t (0 : Fin 4) = (i 0).val := congrFun ht 0
  have q1 : win0_2.index t (1 : Fin 4) = 0 := congrFun ht 1
  have q2 : win0_2.index t (2 : Fin 4) = (i 2).val / 24 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 9 ≤ (i 1).val ∧ (i 1).val < win0_2.index t (1 : Fin 4) * 9 + 9; omega
  | ⟨2, _⟩ => show win0_2.index t (2 : Fin 4) * 24 ≤ (i 2).val ∧ (i 2).val < win0_2.index t (2 : Fin 4) * 24 + 24; omega
  | ⟨3, _⟩ => show win0_2.index t (3 : Fin 4) * 320 ≤ (i 3).val ∧ (i 3).val < win0_2.index t (3 : Fin 4) * 320 + 320; omega

/-- The output array after the run: the correlation of the argument arrays. -/
theorem final (c : Dev nD) : (dats m 0 c).arrAt 2 cfg0.N = Cert.Corr.corr (V m c main_arg0) (V m c main_arg1) :=
  (dats m 0 c).arrAt_eq_of_cover 2 (Cert.Corr.corr (V m c main_arg0) (V m c main_arg1)) (fun t _ => flushed_eq m c t) cover

/-- The idealized kernel's run: the result array ends at the correlation of the arguments, the arguments unchanged. -/
theorem run : θ_run defs (onTc (τ := τ) (main (F := Ideal))) ⟨m, fun _ => 0, ρ⟩ fun r => ∀ c : Dev nD,
      r.2.mem ((c : Thread nD τ).loc main_v0) = Cert.Corr.corr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefRun.lean ====
/-
  The reference program's run, read back in stretches.

  The program is a straight line of 112 operations. What a buffer holds after the line is the fold of the operations'
  results over what the buffers held before it, and the fold over a line cut in two is the fold over the second part of
  the fold over the first. The line is cut where its data flow is narrow:

    the prefix (3 operations) writes the second argument padded with four zero columns on each side of every row;
    each of the nine displacement stretches (11 operations) reads only the first argument and the padded array and
      writes its own displacement's result: four offset constants, the block at that column offset, the product with
      the first argument, zero, the channel sum, the constant 128, its broadcast, the quotient;
    the reshapes (9 operations) give each of the nine results a unit second axis;
    the join (1 operation) concatenates the nine along that axis.

  Each stretch is read for an ARBITRARY state of the buffers before it: what it leaves in the one buffer later
  stretches read, and that it keeps every buffer it does not write. Chaining these from the launch's buffers gives
  the last buffer as the stages' composition over the two arguments, and the arguments unchanged.
-/
import proofs.«106713_j74363063763057_2_alg».proof.Proof.RefRead
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

section General
variable {τ : Topo} {sig : RefSig} {Val : EltTy → Type}

/-- Running two lines one after the other from V: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A list from position a on is its next b entries followed by the list from position a + b on. -/
theorem drop_cut {α : Type} (l : List α) (a b c : Nat) (h : a + b = c) :
    l.drop a = (l.drop a).take b ++ l.drop c := by
  rw [← h, ← List.drop_drop, List.take_append_drop]

/-- An operation that writes the one reference y writes inside any list of references that holds y. -/
theorem writes_sub_of_mem {W : List (Ref sig .tc)} {op : HloOp τ sig Val} {y : Ref sig .tc}
    (hw : op.writes = {Proc.devRef (τ := τ) .tc y}) (hy : y ∈ W) :
    op.writes ⊆ (W.map (Proc.devRef (τ := τ) .tc)).toFinset := by
  rw [hw, Finset.singleton_subset_iff, List.mem_toFinset]
  exact List.mem_map.mpr ⟨y, hy, rfl⟩

end General

variable {F : FTy → Type} [FloatOps F]

/-! ## The stages as functions -/

/-- One displacement's computation from the first array x0, the padded second array y and the block's four offsets g:
    the block of y at g, times x0, summed over the channels from zero, divided by 128. -/
def stageWith (x0 : (⟨S8x128x96x320, .f32⟩ : BufTy).Contents (Elt F)) (y : (⟨S8x128x96x328, .f32⟩ : BufTy).Contents (Elt F))
    (g : Fin 4 → Int) : (⟨S8x96x320, .f32⟩ : BufTy).Contents (Elt F) :=
  Host.divf (Host.reduceAdd (mulf x0 (Host.dynamicSlice S8x128x96x320 y g sliceFits_S8x128x96x328_S8x128x96x320))
      (constant S_ .f32 0x00000000#32) reducesTo_S8x128x96x320_S8x96x320_d1 h_S_)
    (broadcastInDim S8x96x320 ![] bcast_S_S8x96x320 (constant S_ .f32 0x43000000#32))

/-- The offsets of the block of column offset word o: zero on the first three axes, o read signed on the columns. -/
def offs (o : BitVec 32) : Fin 4 → Int := fun k =>
  (((![constantI S_ 32 0#32, constantI S_ 32 0#32, constantI S_ 32 0#32, constantI S_ 32 o] :
    Fin 4 → (⟨S_, .i32⟩ : BufTy).Contents (Elt F))) k (Shape.Idx.first h_S_)).toInt

/-- Nine slabs joined along their unit second axis. -/
def cat (y0 y1 y2 y3 y4 y5 y6 y7 y8 : (⟨S8x1x96x320, .f32⟩ : BufTy).Contents (Elt F)) :
    (⟨S8x9x96x320, .f32⟩ : BufTy).Contents (Elt F) :=
  concatenate S8x9x96x320 1
    [⟨S8x1x96x320, y0⟩, ⟨S8x1x96x320, y1⟩, ⟨S8x1x96x320, y2⟩, ⟨S8x1x96x320, y3⟩, ⟨S8x1x96x320, y4⟩,
     ⟨S8x1x96x320, y5⟩, ⟨S8x1x96x320, y6⟩, ⟨S8x1x96x320, y7⟩, ⟨S8x1x96x320, y8⟩]
    concatenates_S8x1x96x320_S8x1x96x320_S8x1x96x320_S8x1x96x320_S8x1x96x320_S8x1x96x320_S8x1x96x320_S8x1x96x320_S8x1x96x320_S8x9x96x320_d1

/-- A result given a unit second axis. -/
def slabOf (r : (⟨S8x96x320, .f32⟩ : BufTy).Contents (Elt F)) : (⟨S8x1x96x320, .f32⟩ : BufTy).Contents (Elt F) :=
  broadcastInDim S8x1x96x320 ![0, 2, 3] bcast_S8x96x320_S8x1x96x320_0_2_3 r

/-! ## The prefix: the padded second argument -/

def pre : List (HloOp τ sig (Elt F)) := (ValueP.ops (F := F)).take 3

theorem pre_result (V : Valuation τ sig (Elt F)) :
    after (pre (F := F)) V (no_index (Proc.devRef .tc main_v0)) = ReadP.val_main_v0 (V (Proc.devRef .tc main_arg1)) := by
  unfold pre
  simp only [ValueP.ops, List.take_succ_cons, List.take_zero]
  after_results_simp
  simp only [TRef.toBuf, TRef.ofBuf, cast_eq, id]
  rfl

theorem pre_keeps (V : Valuation τ sig (Elt F)) {r : Ref sig .tc} (hr : r ∉ [main_c, main_call0_v0, main_v0]) :
    after (pre (F := F)) V (no_index (Proc.devRef .tc r)) = V (Proc.devRef .tc r) := by
  refine after_of_writes_sub _ V ?_ hr
  unfold pre
  simp only [ValueP.ops, List.take_succ_cons, List.take_zero]
  repeat' (first | exact writes_sub_of_mem rfl (by decide) | constructor)

/-! ## The nine displacement stretches -/

/-- One displacement's stretch — the eleven operations from position start on — read for any buffers V before it: its
    result buffer res holds the stage of the first argument and the padded array at the offsets of word o (the four
    offset operands are the four constants the stretch itself has just written, one case per axis), and every reference
    outside the list W of the eleven it writes keeps its contents. -/
local macro "displacement_stretch " slabN:ident start:num o:term:max res:ident resN:ident keepsN:ident " writes " W:term : command =>
  `(
    def $slabN : List (HloOp τ sig (Elt F)) := ((ValueP.ops (F := F)).drop $start).take 11
    theorem $resN (V : Valuation τ sig (Elt F)) :
        after ($slabN (F := F)) V (no_index (Proc.devRef .tc $res))
          = stageWith (V (Proc.devRef .tc main_arg0)) (V (Proc.devRef .tc main_v0)) (offs (F := F) $o) := by
      unfold $slabN
      simp only [ValueP.ops, List.drop_succ_cons, List.drop_zero, List.take_succ_cons, List.take_zero]
      after_results_simp
      refine congrArg (stageWith _ _) (funext fun k => ?_)
      fin_cases k <;> (try simp only [Matrix.cons_val_zero', Matrix.cons_val_succ', Fin.zero_eta, Fin.mk_one, Matrix.cons_val_zero, Matrix.cons_val_one, Matrix.head_cons]) <;> (try after_results_simp) <;> rfl
    theorem $keepsN (V : Valuation τ sig (Elt F)) {r : Ref sig .tc} (hr : r ∉ $W) :
        after ($slabN (F := F)) V (no_index (Proc.devRef .tc r)) = V (Proc.devRef .tc r) := by
      refine after_of_writes_sub _ V ?_ hr
      unfold $slabN
      simp only [ValueP.ops, List.drop_succ_cons, List.drop_zero, List.take_succ_cons, List.take_zero]
      repeat' (first | exact writes_sub_of_mem rfl (by decide) | constructor))

displacement_stretch slab0 3 0#32 main_v5 slab0_result slab0_keeps
  writes [main_c_0, main_c_1, main_c_2, main_c_3, main_v1, main_v2, main_cst, main_v3, main_cst_4, main_v4, main_v5]
displacement_stretch slab1 14 1#32 main_v10 slab1_result slab1_keeps
  writes [main_c_5, main_c_6, main_c_7, main_c_8, main_v6, main_v7, main_cst_9, main_v8, main_cst_10, main_v9, main_v10]
displacement_stretch slab2 25 2#32 main_v15 slab2_result slab2_keeps
  writes [main_c_11, main_c_12, main_c_13, main_c_14, main_v11, main_v12, main_cst_15, main_v13, main_cst_16, main_v14, main_v15]
displacement_stretch slab3 36 3#32 main_v20 slab3_result slab3_keeps
  writes [main_c_17, main_c_18, main_c_19, main_c_20, main_v16, main_v17, main_cst_21, main_v18, main_cst_22, main_v19, main_v20]
displacement_stretch slab4 47 4#32 main_v25 slab4_result slab4_keeps
  writes [main_c_23, main_c_24, main_c_25, main_c_26, main_v21, main_v22, main_cst_27, main_v23, main_cst_28, main_v24, main_v25]
displacement_stretch slab5 58 5#32 main_v30 slab5_result slab5_keeps
  writes [main_c_29, main_c_30, main_c_31, main_c_32, main_v26, main_v27, main_cst_33, main_v28, main_cst_34, main_v29, main_v30]
displacement_stretch slab6 69 6#32 main_v35 slab6_result slab6_keeps
  writes [main_c_35, main_c_36, main_c_37, main_c_38, main_v31, main_v32, main_cst_39, main_v33, main_cst_40, main_v34, main_v35]
displacement_stretch slab7 80 7#32 main_v40 slab7_result slab7_keeps
  writes [main_c_41, main_c_42, main_c_43, main_c_44, main_v36, main_v37, main_cst_45, main_v38, main_cst_46, main_v39, main_v40]
displacement_stretch slab8 91 8#32 main_v45 slab8_result slab8_keeps
  writes [main_c_47, main_c_48, main_c_49, main_c_50, main_v41, main_v42, main_cst_51, main_v43, main_cst_52, main_v44, main_v45]

/-! ## The reshapes and the join -/

def reshapes : List (HloOp τ sig (Elt F)) := ((ValueP.ops (F := F)).drop 102).take 9
def join : List (HloOp τ sig (Elt F)) := (ValueP.ops (F := F)).drop 111

/-- The reshape of one result, for any buffers V before the nine reshapes: the slab of what src held. -/
local macro "reshape_stretch " src:ident dst:ident name:ident : command =>
  `(
    theorem $name (V : Valuation τ sig (Elt F)) :
        after (reshapes (F := F)) V (no_index (Proc.devRef .tc $dst)) = slabOf (V (Proc.devRef .tc $src)) := by
      unfold reshapes
      simp only [ValueP.ops, List.drop_succ_cons, List.drop_zero, List.take_succ_cons, List.take_zero]
      after_results_simp
      rfl)

reshape_stretch main_v5 main_v46 reshapes_result0
reshape_stretch main_v10 main_v47 reshapes_result1
reshape_stretch main_v15 main_v48 reshapes_result2
reshape_stretch main_v20 main_v49 reshapes_result3
reshape_stretch main_v25 main_v50 reshapes_result4
reshape_stretch main_v30 main_v51 reshapes_result5
reshape_stretch main_v35 main_v52 reshapes_result6
reshape_stretch main_v40 main_v53 reshapes_result7
reshape_stretch main_v45 main_v54 reshapes_result8

theorem reshapes_keeps (V : Valuation τ sig (Elt F)) {r : Ref sig .tc}
    (hr : r ∉ [main_v46, main_v47, main_v48, main_v49, main_v50, main_v51, main_v52, main_v53, main_v54]) :
    after (reshapes (F := F)) V (no_index (Proc.devRef .tc r)) = V (Proc.devRef .tc r) := by
  refine after_of_writes_sub _ V ?_ hr
  unfold reshapes
  simp only [ValueP.ops, List.drop_succ_cons, List.drop_zero, List.take_succ_cons, List.take_zero]
  repeat' (first | exact writes_sub_of_mem rfl (by decide) | constructor)

/-- The join, for any buffers W before it: the nine slabs W holds, joined. -/
theorem join_result (W : Valuation τ sig (Elt F)) :
    after (join (F := F)) W (no_index (Proc.devRef .tc main_v55))
      = cat (W (Proc.devRef .tc main_v46)) (W (Proc.devRef .tc main_v47)) (W (Proc.devRef .tc main_v48))
          (W (Proc.devRef .tc main_v49)) (W (Proc.devRef .tc main_v50)) (W (Proc.devRef .tc main_v51))
          (W (Proc.devRef .tc main_v52)) (W (Proc.devRef .tc main_v53)) (W (Proc.devRef .tc main_v54)) := by
  unfold join
  simp only [ValueP.ops, List.drop_succ_cons, List.drop_zero]
  after_results_simp
  simp only [Matrix.cons_val]
  rfl

theorem join_keeps (V : Valuation τ sig (Elt F)) {r : Ref sig .tc} (hr : r ∉ [main_v55]) :
    after (join (F := F)) V (no_index (Proc.devRef .tc r)) = V (Proc.devRef .tc r) := by
  refine after_of_writes_sub _ V ?_ hr
  unfold join
  simp only [ValueP.ops, List.drop_succ_cons, List.drop_zero]
  repeat' (first | exact writes_sub_of_mem rfl (by decide) | constructor)

/-! ## The whole line -/

/-- The line is its stretches in order. -/
theorem ops_cut : (ValueP.ops (F := F)) = pre ++ (slab0 ++ (slab1 ++ (slab2 ++ (slab3 ++ (slab4 ++ (slab5 ++ (slab6 ++
    (slab7 ++ (slab8 ++ (reshapes ++ join)))))))))) := by
  unfold pre slab0 slab1 slab2 slab3 slab4 slab5 slab6 slab7 slab8 reshapes join
  rw [← drop_cut _ 102 9 111 rfl, ← drop_cut _ 91 11 102 rfl, ← drop_cut _ 80 11 91 rfl, ← drop_cut _ 69 11 80 rfl,
    ← drop_cut _ 58 11 69 rfl, ← drop_cut _ 47 11 58 rfl, ← drop_cut _ 36 11 47 rfl, ← drop_cut _ 25 11 36 rfl,
    ← drop_cut _ 14 11 25 rfl, ← drop_cut _ 3 11 14 rfl, List.take_append_drop]

/-- The stages composed over the two arguments are the reference's stages as the reading module names them. -/
theorem composed_eq (x0 x1 : (⟨S8x128x96x320, .f32⟩ : BufTy).Contents (Elt F)) :
    cat (slabOf (stageWith x0 (ReadP.val_main_v0 x1) (offs (F := F) 0#32)))
        (slabOf (stageWith x0 (ReadP.val_main_v0 x1) (offs (F := F) 1#32)))
        (slabOf (stageWith x0 (ReadP.val_main_v0 x1) (offs (F := F) 2#32)))
        (slabOf (stageWith x0 (ReadP.val_main_v0 x1) (offs (F := F) 3#32)))
        (slabOf (stageWith x0 (ReadP.val_main_v0 x1) (offs (F := F) 4#32)))
        (slabOf (stageWith x0 (ReadP.val_main_v0 x1) (offs (F := F) 5#32)))
        (slabOf (stageWith x0 (ReadP.val_main_v0 x1) (offs (F := F) 6#32)))
        (slabOf (stageWith x0 (ReadP.val_main_v0 x1) (offs (F := F) 7#32)))
        (slabOf (stageWith x0 (ReadP.val_main_v0 x1) (offs (F := F) 8#32)))
      = ReadP.val_main_v55 x0 x1 := rfl

/-- After the whole line from any buffers V, the last buffer holds the reference's result of the two arguments V holds. -/
theorem line_result (V : Valuation τ sig (Elt F)) :
    after (ValueP.ops (F := F)) V (Proc.devRef .tc main_v55)
      = ReadP.val_main_v55 (V (Proc.devRef .tc main_arg0)) (V (Proc.devRef .tc main_arg1)) := by
  rw [ops_cut, ← composed_eq]
  simp (disch := decide) only [after_append, join_result,
    reshapes_result0, reshapes_result1, reshapes_result2, reshapes_result3, reshapes_result4, reshapes_result5,
    reshapes_result6, reshapes_result7, reshapes_result8,
    slab0_result, slab1_result, slab2_result, slab3_result, slab4_result, slab5_result, slab6_result, slab7_result,
    slab8_result,
    slab0_keeps, slab1_keeps, slab2_keeps, slab3_keeps, slab4_keeps, slab5_keeps, slab6_keeps, slab7_keeps, slab8_keeps,
    pre_result, pre_keeps]

/-- No operation of the line writes an argument. -/
theorem line_keeps_args (V : Valuation τ sig (Elt F)) {r : Ref sig .tc} (hr : r ∈ [main_arg0, main_arg1]) :
    after (ValueP.ops (F := F)) V (Proc.devRef .tc r) = V (Proc.devRef .tc r) := by
  rw [ops_cut]
  simp only [List.mem_cons, List.mem_nil_iff, or_false] at hr
  rcases hr with rfl | rfl <;>
    simp (disch := decide) only [after_append, join_keeps, reshapes_keeps,
      slab0_keeps, slab1_keeps, slab2_keeps, slab3_keeps, slab4_keeps, slab5_keeps, slab6_keeps, slab7_keeps, slab8_keeps,
      pre_keeps]

/-- On every device, for any float values, from any memory with zero counters: every weakly fair execution of the
    reference terminates with its result buffer at the reference's result of the two arguments, and the arguments
    unchanged. -/
theorem run (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩ fun r =>
      ∀ c : Dev Cert.ReferenceIdeal.nD,
        r.2.mem ((c.tc : Thread _ _).loc Cert.ReferenceIdeal.main_v55)
            = Cert.ReferenceIdeal.ReadP.val_main_v55 (F := F) (m ((c.tc : Thread _ _).loc Cert.ReferenceIdeal.main_arg0))
                (m ((c.tc : Thread _ _).loc Cert.ReferenceIdeal.main_arg1))
        ∧ r.2.mem ((c.tc : Thread _ _).loc Cert.ReferenceIdeal.main_arg0) = m ((c.tc : Thread _ _).loc Cert.ReferenceIdeal.main_arg0)
        ∧ r.2.mem ((c.tc : Thread _ _).loc Cert.ReferenceIdeal.main_arg1) = m ((c.tc : Thread _ _).loc Cert.ReferenceIdeal.main_arg1) :=
  (θ_run defs _ _).mono (fun _ h c =>
      ⟨(h c main_v55).trans (line_result (launchContents m c)),
       (h c main_arg0).trans (line_keeps_args (launchContents m c) (by decide)),
       (h c main_arg1).trans (line_keeps_args (launchContents m c) (by decide))⟩)
    (run_seq ValueP.scopedRefs_eq ValueP.scopedSems_eq defs main (fun _ => ValueP.ops) ValueP.main_eq (fun _ => ValueP.ops_sub) m ρ)

end Cert.RefRun

end
-- ==== Proof.RefSlab.lean ====
/-
  The reference's building blocks read at one point, over the literal shapes, with no program in sight.

  A row of 320 columns padded with four columns on each side and then read from column x + d on (d = 0, …, 8) is the
  row read d - 4 columns to the right of x, and the padding value where that column falls outside the row: with the
  padding value zero this is the specification's shifted read.

  One displacement's result at a point is zero plus the sum over the 128 channels of the products with the shifted
  reads, divided by 128. Zero is neutral for the addition of extended reals, and the quotient by the real 128 is the
  product with its reciprocal at the infinities too, so that result is the specification's correlation at the point.
  Nothing here needs an entry to be finite.
-/
import proofs.«106713_j74363063763057_2_alg».proof.Proof.Spec
import Idealize.ShloMosaic.Lib.KernelVsHost
import Idealize.ShloMosaic.Lib.DynamicIndex

noncomputable section

namespace Cert.RefCorr

open Idealize.ShloMosaic Idealize.ShloMosaic.ValueIdx Cert.Corr

/-- The padded array's shape: four more columns on each side of a row. -/
abbrev SP : Shape := ⟨4, ![8, 128, 96, 328]⟩

/-- The word 0x43000000 denotes the real 128. -/
theorem ofBits_128 : Ideal.ofBits .f32 0x43000000#32 = ((128 : ℝ) : EReal) := by
  simp [Ideal.ofBits, Ideal.ieee, -EReal.coe_mul]; norm_num

/-- The integer zero converted to a float is zero. -/
theorem sitofp_zero_word : FloatOps.sitofp (F := Ideal) .f32 (0#32 : BitVec 32) = 0 := by
  show ((((0#32 : BitVec 32).toInt : ℤ) : ℝ) : EReal) = 0
  simp

section Point
variable {α : Type}

/-- The padded array at column c: the array at column c - 4 when that is inside the row, the padding value in the four
    columns on either side. -/
theorem pad_point (x1 : SA.Idx → α) {u : Shape} (v : u.Idx → α)
    (hp : SA.Pads (![0, 0, 0, 4] : Fin 4 → Nat) ![0, 0, 0, 4] ![0, 0, 0, 0] SP) (hu : 0 < u.numel)
    (b : Fin 8) (ch : Fin 128) (h : Fin 96) (c : Fin 328) :
    pad SP ![0, 0, 0, 4] ![0, 0, 0, 4] ![0, 0, 0, 0] x1 v hp hu (ix4 b ch h c)
      = if hc : 4 ≤ c.val ∧ c.val < 324 then x1 (ix4 b ch h ⟨c.val - 4, by omega⟩) else v (Shape.Idx.first hu) := by
  by_cases hc : 4 ≤ c.val ∧ c.val < 324
  · rw [dif_pos hc]
    refine pad_apply_of_inside _ _ _ x1 v hp hu _ _ (fun a => ?_)
    match a with
    | ⟨0, _⟩ => show b.val = 0 + b.val * (0 + 1); omega
    | ⟨1, _⟩ => show ch.val = 0 + ch.val * (0 + 1); omega
    | ⟨2, _⟩ => show h.val = 0 + h.val * (0 + 1); omega
    | ⟨3, _⟩ => show c.val = 4 + (c.val - 4) * (0 + 1); omega
  · rw [dif_neg hc]
    refine pad_apply_of_not_inside _ _ _ x1 v hp hu _ 3 ?_
    show ¬(4 ≤ c.val ∧ (c.val - 4) % (0 + 1) = 0 ∧ (c.val - 4) / (0 + 1) < 320)
    omega

/-- A block of the unpadded extents taken at column offset d, and at offset zero on the other three axes, reads
    column x + d: the offsets leave the block inside the padded array, so no offset is clamped. -/
theorem slice_point (y : SP.Idx → α) (off : Fin 4 → Int) (hs : SP.Slices (fun _ => 0) SA) (d : Fin 9)
    (h0 : off 0 = 0) (h1 : off 1 = 0) (h2 : off 2 = 0) (h3 : off 3 = (d.val : Int))
    (b : Fin 8) (ch : Fin 128) (h : Fin 96) (x : Fin 320) :
    Host.dynamicSlice SA y off hs (ix4 b ch h x)
      = y (ix4 b ch h ⟨x.val + d.val, by have := x.isLt; have := d.isLt; omega⟩) := by
  have hd := d.isLt
  have hoff : SP.Slices (![0, 0, 0, d.val] : Fin 4 → Nat) SA := ⟨rfl, fun a => by
    match a with
    | ⟨0, _⟩ => show 0 + 8 ≤ 8; omega
    | ⟨1, _⟩ => show 0 + 128 ≤ 128; omega
    | ⟨2, _⟩ => show 0 + 96 ≤ 96; omega
    | ⟨3, _⟩ => show d.val + 320 ≤ 328; omega⟩
  rw [Host.dynamicSlice_eq_extractStridedSlice SA y off ![0, 0, 0, d.val] hs hoff (fun a => by
    match a with
    | ⟨0, _⟩ => exact h0
    | ⟨1, _⟩ => exact h1
    | ⟨2, _⟩ => exact h2
    | ⟨3, _⟩ => exact h3)]
  refine extractStridedSlice_apply _ y hoff _ _ (fun a => ?_)
  match a with
  | ⟨0, _⟩ => show b.val = 0 + b.val; omega
  | ⟨1, _⟩ => show ch.val = 0 + ch.val; omega
  | ⟨2, _⟩ => show h.val = 0 + h.val; omega
  | ⟨3, _⟩ => show x.val + d.val = d.val + x.val; omega

/-- The block at column offset d of the padded array, at a point: the array d - 4 columns to the right of x when that
    column is inside the row, the padding value otherwise. -/
theorem pad_slice_point (x1 : SA.Idx → α) {u : Shape} (v : u.Idx → α)
    (hp : SA.Pads (![0, 0, 0, 4] : Fin 4 → Nat) ![0, 0, 0, 4] ![0, 0, 0, 0] SP) (hu : 0 < u.numel)
    (off : Fin 4 → Int) (hs : SP.Slices (fun _ => 0) SA) (d : Fin 9)
    (h0 : off 0 = 0) (h1 : off 1 = 0) (h2 : off 2 = 0) (h3 : off 3 = (d.val : Int))
    (b : Fin 8) (ch : Fin 128) (h : Fin 96) (x : Fin 320) :
    Host.dynamicSlice SA (pad SP ![0, 0, 0, 4] ![0, 0, 0, 4] ![0, 0, 0, 0] x1 v hp hu) off hs (ix4 b ch h x)
      = if hx : inRow x d then x1 (ix4 b ch h (shiftCol x d hx)) else v (Shape.Idx.first hu) :=
  (slice_point _ off hs d h0 h1 h2 h3 b ch h x).trans
    (pad_point x1 v hp hu b ch h ⟨x.val + d.val, by have := x.isLt; have := d.isLt; omega⟩)

end Point

/-- One displacement's result at a point. The slice stage sl is the shifted read of the second array along the channels
    at the point; the sum runs over the channel indices idx k of the point. -/
theorem stage_point (x0 x1 : FVec Ideal SA .f32) (b : Fin 8) (d : Fin 9) (h : Fin 96) (x : Fin 320)
    (sl : FVec Ideal SA .f32) (hsl : ∀ ch : Fin 128, sl (ix4 b ch h x) = shifted x1 b ch h x d)
    (idx : Fin 128 → SA.Idx) (hidx : ∀ k, idx k = ix4 b k h x) :
    FloatOps.hostDivf (F := Ideal)
        (FloatOps.ofBits (F := Ideal) .f32 0x00000000#32 + ∑ k : Fin 128, FloatOps.mulf (x0 (idx k)) (sl (idx k)))
        (FloatOps.ofBits (F := Ideal) .f32 0x43000000#32)
      = corrAt x0 x1 b d h x := by
  simp only [hidx, hsl, Ideal.hostDivf_def, Ideal.mulf_def, Ideal.ofBits_def]
  rw [Ideal.ofBits_zero_f32, zero_add, ofBits_128, Ideal.div_coe (by norm_num)]
  rfl

/-- The block at column offset d of the array padded with zeros is the specification's shifted read. -/
theorem shifted_point (x1 : FVec Ideal SA .f32) {u : Shape} (v : u.Idx → EReal)
    (hp : SA.Pads (![0, 0, 0, 4] : Fin 4 → Nat) ![0, 0, 0, 4] ![0, 0, 0, 0] SP) (hu : 0 < u.numel)
    (hv : v (Shape.Idx.first hu) = 0)
    (off : Fin 4 → Int) (hs : SP.Slices (fun _ => 0) SA) (d : Fin 9)
    (h0 : off 0 = 0) (h1 : off 1 = 0) (h2 : off 2 = 0) (h3 : off 3 = (d.val : Int))
    (b : Fin 8) (ch : Fin 128) (h : Fin 96) (x : Fin 320) :
    Host.dynamicSlice SA (pad SP ![0, 0, 0, 4] ![0, 0, 0, 4] ![0, 0, 0, 0] x1 v hp hu) off hs (ix4 b ch h x)
      = shifted x1 b ch h x d := by
  rw [pad_slice_point x1 v hp hu off hs d h0 h1 h2 h3, hv]
  rfl

/-- One displacement's slab: a unit axis in second place. -/
abbrev SU : Shape := ⟨4, ![8, 1, 96, 320]⟩

section Concat
variable {α : Type}

/-- The index of a slab with the point's coordinates agrees with the point off the joined axis. -/
theorem slab_idx_off (b : Fin 8) (d : Fin 9) (h : Fin 96) (x : Fin 320) (hr : SU.rank = SO.rank) :
    ∀ a : Fin SU.rank, a.cast hr ≠ (1 : Fin SO.rank) →
      ((ix4 b (0 : Fin 1) h x : SU.Idx) a).val = ((ix4 b d h x : SO.Idx) (a.cast hr)).val := fun a => by
  match a with
  | ⟨0, _⟩ => exact fun _ => rfl
  | ⟨1, _⟩ => exact fun hne => absurd rfl hne
  | ⟨2, _⟩ => exact fun _ => rfl
  | ⟨3, _⟩ => exact fun _ => rfl

/-- Nine slabs joined along the second axis, read at (b, d, h, x): slab d at (b, 0, h, x). Each slab spans one
    coordinate of the joined axis, so the slabs before slab d span d of them. -/
theorem concat_point (y0 y1 y2 y3 y4 y5 y6 y7 y8 : SU.Idx → α)
    (hc : Shape.Concatenates (([⟨SU, y0⟩, ⟨SU, y1⟩, ⟨SU, y2⟩, ⟨SU, y3⟩, ⟨SU, y4⟩, ⟨SU, y5⟩, ⟨SU, y6⟩, ⟨SU, y7⟩, ⟨SU, y8⟩] :
      List ((s : Shape) × (s.Idx → α))).map (·.1)) SO 1)
    (b : Fin 8) (d : Fin 9) (h : Fin 96) (x : Fin 320) :
    concatenate SO 1 [⟨SU, y0⟩, ⟨SU, y1⟩, ⟨SU, y2⟩, ⟨SU, y3⟩, ⟨SU, y4⟩, ⟨SU, y5⟩, ⟨SU, y6⟩, ⟨SU, y7⟩, ⟨SU, y8⟩] hc (ix4 b d h x)
      = (![y0, y1, y2, y3, y4, y5, y6, y7, y8] : Fin 9 → SU.Idx → α) d (ix4 b 0 h x) := by
  match d with
  | ⟨0, hd⟩ => exact concatenate_apply_piece 1 _ hc _ 0 (by show 0 < 9; decide) SU y0 rfl rfl 0 rfl (ix4 b 0 h x) (slab_idx_off b ⟨0, hd⟩ h x rfl) rfl
  | ⟨1, hd⟩ => exact concatenate_apply_piece 1 _ hc _ 1 (by show 1 < 9; decide) SU y1 rfl rfl 1 rfl (ix4 b 0 h x) (slab_idx_off b ⟨1, hd⟩ h x rfl) rfl
  | ⟨2, hd⟩ => exact concatenate_apply_piece 1 _ hc _ 2 (by show 2 < 9; decide) SU y2 rfl rfl 2 rfl (ix4 b 0 h x) (slab_idx_off b ⟨2, hd⟩ h x rfl) rfl
  | ⟨3, hd⟩ => exact concatenate_apply_piece 1 _ hc _ 3 (by show 3 < 9; decide) SU y3 rfl rfl 3 rfl (ix4 b 0 h x) (slab_idx_off b ⟨3, hd⟩ h x rfl) rfl
  | ⟨4, hd⟩ => exact concatenate_apply_piece 1 _ hc _ 4 (by show 4 < 9; decide) SU y4 rfl rfl 4 rfl (ix4 b 0 h x) (slab_idx_off b ⟨4, hd⟩ h x rfl) rfl
  | ⟨5, hd⟩ => exact concatenate_apply_piece 1 _ hc _ 5 (by show 5 < 9; decide) SU y5 rfl rfl 5 rfl (ix4 b 0 h x) (slab_idx_off b ⟨5, hd⟩ h x rfl) rfl
  | ⟨6, hd⟩ => exact concatenate_apply_piece 1 _ hc _ 6 (by show 6 < 9; decide) SU y6 rfl rfl 6 rfl (ix4 b 0 h x) (slab_idx_off b ⟨6, hd⟩ h x rfl) rfl
  | ⟨7, hd⟩ => exact concatenate_apply_piece 1 _ hc _ 7 (by show 7 < 9; decide) SU y7 rfl rfl 7 rfl (ix4 b 0 h x) (slab_idx_off b ⟨7, hd⟩ h x rfl) rfl
  | ⟨8, hd⟩ => exact concatenate_apply_piece 1 _ hc _ 8 (by show 8 < 9; decide) SU y8 rfl rfl 8 rfl (ix4 b 0 h x) (slab_idx_off b ⟨8, hd⟩ h x rfl) rfl

end Concat

end Cert.RefCorr

end
-- ==== Proof.RefValue.lean ====
/-
  The reference program, read operation by operation, is the specification's correlation.

  The program pads the second array with four zero columns on each side of every row. For each displacement
  d = 0, …, 8 it takes the block of the unpadded extents at column offset d, multiplies it entry by entry with the first
  array, sums over the channels starting from zero, and divides by 128; it then gives each of the nine results a unit
  second axis and joins the nine along that axis. At (b, d, h, x) the joined array is therefore the result of
  displacement d at (b, h, x): the sum over the channels of the first array at column x times the second array at column
  x + d - 4, read as zero outside the row, times 1/128.

  The nine displacements are nine copies of one computation that differ in the column offset alone, so each is read by
  the same two steps: the block at offset d is the shifted read, and the arithmetic at a point is the correlation there.
-/
import proofs.«106713_j74363063763057_2_alg».proof.Proof.RefRead
import proofs.«106713_j74363063763057_2_alg».proof.Proof.Spec
import proofs.«106713_j74363063763057_2_alg».proof.Proof.RefSlab

noncomputable section

namespace Cert.RefCorr

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx Cert.Corr

/-- The padding value, the integer zero converted to a float, is zero. -/
theorem pad_value (i : S_.Idx) : (val_main_call0_v0 (F := Ideal) i : EReal) = 0 := by
  rw [val_main_call0_v0_apply, val_main_c_apply]
  exact sitofp_zero_word

/-- The two readings of ONE displacement's stage, stated for that stage's own operations (the nine stages are the same
    computation and differ in the column offset alone). Given the displacement k and the names of the stage's
    operations — its block, its reshaped result, the lemmas reading its reshape, quotient, channel sum, broadcast
    divisor, the two constants and the product at an index, and the two index maps — it states
    first that the block at column offset k of the padded second array is the shifted read, and then that the stage's
    result at (b, h, x) is the correlation at (b, k, h, x): the operations are read outermost first, the channel sum's
    index map is identified with the point's channel indices coordinate by coordinate, and the arithmetic is the
    point lemma of the slab. -/
local macro "displacement " k:num sliceN:ident pieceN:ident blk:ident res:ident
    resAt:ident quotAt:ident sumAt:ident divisorAt:ident zeroAt:ident c128At:ident prodAt:ident
    sumIdx:ident resIdx:ident : command =>
  `(
    theorem $sliceN (x1 : (⟨S8x128x96x320, .f32⟩ : BufTy).Contents (Elt Ideal))
        (b : Fin 8) (ch : Fin 128) (h : Fin 96) (x : Fin 320) :
        $blk (F := Ideal) x1 (ix4 b ch h x) = shifted x1 b ch h x ⟨$k, by decide⟩ := by
      unfold $blk val_main_v0
      exact shifted_point x1 _ _ _ (pad_value _) _ _ ⟨$k, by decide⟩ rfl rfl rfl rfl b ch h x
    theorem $pieceN (x0 x1 : (⟨S8x128x96x320, .f32⟩ : BufTy).Contents (Elt Ideal))
        (b : Fin 8) (h : Fin 96) (x : Fin 320) :
        $res (F := Ideal) x0 x1 (ix4 b 0 h x) = corrAt x0 x1 b ⟨$k, by decide⟩ h x := by
      rw [$resAt:ident, $quotAt:ident, $sumAt:ident, $divisorAt:ident, $zeroAt:ident, $c128At:ident]
      simp only [$prodAt:ident]
      exact stage_point x0 x1 b ⟨$k, by decide⟩ h x ($blk (F := Ideal) x1) (fun ch => $sliceN x1 b ch h x)
        ($sumIdx ($resIdx (ix4 b 0 h x)))
        (fun k => funext fun a => by match a with | ⟨0, _⟩ => rfl | ⟨1, _⟩ => rfl | ⟨2, _⟩ => rfl | ⟨3, _⟩ => rfl))

displacement 0 slice0 piece0 val_main_v1 val_main_v46
  val_main_v46_apply val_main_v5_apply val_main_v3_apply val_main_v4_apply val_main_cst_apply val_main_cst_4_apply val_main_v2_apply
  idx_main_v3 idx_main_v46
displacement 1 slice1 piece1 val_main_v6 val_main_v47
  val_main_v47_apply val_main_v10_apply val_main_v8_apply val_main_v9_apply val_main_cst_9_apply val_main_cst_10_apply val_main_v7_apply
  idx_main_v8 idx_main_v47
displacement 2 slice2 piece2 val_main_v11 val_main_v48
  val_main_v48_apply val_main_v15_apply val_main_v13_apply val_main_v14_apply val_main_cst_15_apply val_main_cst_16_apply val_main_v12_apply
  idx_main_v13 idx_main_v48
displacement 3 slice3 piece3 val_main_v16 val_main_v49
  val_main_v49_apply val_main_v20_apply val_main_v18_apply val_main_v19_apply val_main_cst_21_apply val_main_cst_22_apply val_main_v17_apply
  idx_main_v18 idx_main_v49
displacement 4 slice4 piece4 val_main_v21 val_main_v50
  val_main_v50_apply val_main_v25_apply val_main_v23_apply val_main_v24_apply val_main_cst_27_apply val_main_cst_28_apply val_main_v22_apply
  idx_main_v23 idx_main_v50
displacement 5 slice5 piece5 val_main_v26 val_main_v51
  val_main_v51_apply val_main_v30_apply val_main_v28_apply val_main_v29_apply val_main_cst_33_apply val_main_cst_34_apply val_main_v27_apply
  idx_main_v28 idx_main_v51
displacement 6 slice6 piece6 val_main_v31 val_main_v52
  val_main_v52_apply val_main_v35_apply val_main_v33_apply val_main_v34_apply val_main_cst_39_apply val_main_cst_40_apply val_main_v32_apply
  idx_main_v33 idx_main_v52
displacement 7 slice7 piece7 val_main_v36 val_main_v53
  val_main_v53_apply val_main_v40_apply val_main_v38_apply val_main_v39_apply val_main_cst_45_apply val_main_cst_46_apply val_main_v37_apply
  idx_main_v38 idx_main_v53
displacement 8 slice8 piece8 val_main_v41 val_main_v54
  val_main_v54_apply val_main_v45_apply val_main_v43_apply val_main_v44_apply val_main_cst_51_apply val_main_cst_52_apply val_main_v42_apply
  idx_main_v43 idx_main_v54

/-- The nine slabs at (b, h, x), as one function of the displacement. -/
theorem pieces_point (x0 x1 : (⟨S8x128x96x320, .f32⟩ : BufTy).Contents (Elt Ideal)) (b : Fin 8) (d : Fin 9) (h : Fin 96) (x : Fin 320) :
    (![val_main_v46 (F := Ideal) x0 x1, val_main_v47 (F := Ideal) x0 x1, val_main_v48 (F := Ideal) x0 x1,
        val_main_v49 (F := Ideal) x0 x1, val_main_v50 (F := Ideal) x0 x1, val_main_v51 (F := Ideal) x0 x1,
        val_main_v52 (F := Ideal) x0 x1, val_main_v53 (F := Ideal) x0 x1, val_main_v54 (F := Ideal) x0 x1] :
        Fin 9 → SU.Idx → EReal) d (ix4 b 0 h x)
      = corrAt x0 x1 b d h x := by
  match d with
  | ⟨0, _⟩ => exact piece0 x0 x1 b h x
  | ⟨1, _⟩ => exact piece1 x0 x1 b h x
  | ⟨2, _⟩ => exact piece2 x0 x1 b h x
  | ⟨3, _⟩ => exact piece3 x0 x1 b h x
  | ⟨4, _⟩ => exact piece4 x0 x1 b h x
  | ⟨5, _⟩ => exact piece5 x0 x1 b h x
  | ⟨6, _⟩ => exact piece6 x0 x1 b h x
  | ⟨7, _⟩ => exact piece7 x0 x1 b h x
  | ⟨8, _⟩ => exact piece8 x0 x1 b h x

/-- The reference's result is the correlation of its two arguments. -/
theorem ref_eq (x0 x1 : (⟨Cert.ReferenceIdeal.S8x128x96x320, .f32⟩ : BufTy).Contents (Elt Ideal)) :
    Cert.ReferenceIdeal.ReadP.val_main_v55 (F := Ideal) x0 x1 = Cert.Corr.corr x0 x1 := by
  funext i
  obtain ⟨b, d, h, x, rfl⟩ : ∃ b d h x, i = ix4 b d h x := ⟨i 0, i 1, i 2, i 3, eq_ix4 i⟩
  show _ = corrAt x0 x1 b d h x
  unfold val_main_v55
  exact (concat_point _ _ _ _ _ _ _ _ _ _ b d h x).trans (pieces_point x0 x1 b d h x)

end Cert.RefCorr

end
-- ==== Proof.lean ====
/-
  The certificate: a one-dimensional correlation (cost volume) kernel against its jnp reference.

  Both programs take `x1, x2 : f32[8, 128, 96, 320]` (batch, channel, row, column) and return `f32[8, 9, 96, 320]`: at
  `(b, d, h, x)` the mean over the 128 channels of `x1[b, ch, h, x] · x2[b, ch, h, x + d - 4]`, the second factor zero when
  the column `x + d - 4` leaves the row (`Cert.Corr.corr`, Proof/Spec.lean).

  The KERNEL works on blocks of one batch entry and 24 rows. Per block it zeroes an accumulator `[9, 24, 320]`; for each of
  four chunks of 32 channels and each displacement `d` it rolls the `x2` chunk along the columns, masks the columns the roll
  brought around the row's end to zero, multiplies by the `x1` chunk, sums the 32 channels and adds the sum to the
  accumulator's slab `d`; at the end it scales the accumulator by the word 2⁻⁷ and stores it. The REFERENCE pads `x2` with
  four zero columns on each side, takes the nine column windows, multiplies, sums all 128 channels, divides by 128 and stacks
  the nine results.

  At the ideal instance the two are one function: a masked rolled column IS the padded array's window column; the four
  chunk sums added onto zero ARE the sum over all channels (addition of extended reals is commutative and associative —
  no finiteness is used); the product with 2⁻⁷ IS the quotient by 128 on every extended real. The idealization rewrote no
  operation, so the `preserves` conjunct is trivial.

  Frames: both kernels' bodies are run once at symbolic operands (Proof/KBody.lean, Proof/KBodyB.lean) and launched over the
  grid (Proof/KFrame.lean, Proof/KFrameB.lean); the reference's run is read back in stretches (Proof/RefRun.lean). Values: the
  kernel's result array is `corr` of the arguments (Proof/KAcc.lean, Proof/KOut.lean, Proof/KValue.lean over Proof/SlabValue.lean); so
  is the reference's (Proof/RefSlab.lean, Proof/RefValue.lean).
-/
import proofs.«106713_j74363063763057_2_alg».proof.Defs
import proofs.«106713_j74363063763057_2_alg».proof.Proof.Gen.Kernel
import proofs.«106713_j74363063763057_2_alg».proof.Proof.Gen.KernelIdeal
import proofs.«106713_j74363063763057_2_alg».proof.Proof.Gen.ReferenceIdeal
import proofs.«106713_j74363063763057_2_alg».proof.Proof.Gen.Pre_finite_inputs
import proofs.«106713_j74363063763057_2_alg».proof.Proof.KFrameB
import proofs.«106713_j74363063763057_2_alg».proof.Proof.KValue
import proofs.«106713_j74363063763057_2_alg».proof.Proof.RefRun
import proofs.«106713_j74363063763057_2_alg».proof.Proof.RefValue
import Idealize.ShloMosaic.Adequacy
import Idealize.ShloMosaic.Init

noncomputable section

namespace Cert.Proof

open Idealize.ShloMosaic Idealize.SL.Sem

/-- The kernel as printed runs to its end without a fault and leaves its arguments unchanged. -/
theorem frame_k : Cert.frame_Kernel (hKernel := Cert.Kernel.Gen.facts) (hPre_finite_inputs := Cert.Pre_finite_inputs.Gen.facts) :=
  fun m ρ _ => Cert.Kernel.KFrame.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.KFrame.frame m ρ

/-- And the reference: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefRun.run (F := Ideal) m ρ)

/-- From memories agreeing on the arguments, both idealized programs end with the correlation of the arguments in their
    result array: the kernel's run names it (`KValue.run`), the reference's result stage is it (`RefCorr.ref_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.RefRun.run (F := Ideal) m' ρ')
  rw [(hagree c).1, (hagree c).2]
  exact Cert.RefCorr.ref_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
